-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S32x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) (main_arg6 : FVec F S32x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x64 : Shape := ⟨2, ![1, 64]⟩
abbrev S1x32 : Shape := ⟨2, ![1, 32]⟩
abbrev S1x16 : Shape := ⟨2, ![1, 16]⟩
abbrev S10000x16 : Shape := ⟨2, ![10000, 16]⟩
abbrev S200x10000 : Shape := ⟨2, ![200, 10000]⟩
abbrev S400x16 : Shape := ⟨2, ![400, 16]⟩
abbrev S10000x32 : Shape := ⟨2, ![10000, 32]⟩
abbrev S10000x64 : Shape := ⟨2, ![10000, 64]⟩
abbrev S200x32 : Shape := ⟨2, ![200, 32]⟩
abbrev S200x16 : Shape := ⟨2, ![200, 16]⟩

abbrev nBuf : Space → Nat
  | .hbm => 12
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x64, .f32⟩
  | .hbm, ⟨9, _⟩ => ⟨S1x32, .f32⟩
  | .hbm, ⟨10, _⟩ => ⟨S1x16, .f32⟩
  | .hbm, ⟨11, _⟩ => ⟨S10000x16, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x64, .f32⟩
  | .local _ .vmem, ⟨6, _⟩ => ⟨S1x64, .f32⟩
  | .local _ .vmem, ⟨7, _⟩ => ⟨S64x32, .f32⟩
  | .local _ .vmem, ⟨8, _⟩ => ⟨S1x32, .f32⟩
  | .local _ .vmem, ⟨9, _⟩ => ⟨S32x16, .f32⟩
  | .local _ .vmem, ⟨10, _⟩ => ⟨S1x16, .f32⟩
  | .local _ .vmem, ⟨11, _⟩ => ⟨S400x16, .f32⟩
  | .local _ .vmem, ⟨12, _⟩ => ⟨S400x16, .f32⟩
  | .local _ .vmem, ⟨13, _⟩ => ⟨S10000x32, .f32⟩
  | .local _ .vmem, ⟨14, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c25_i32 : BitVec 32 := 25#32
  let v4 : BitVec 1 := Scalar.cmpi .sle arg0 c25_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) (c0_i32_14 : BitVec 32) : Fin 2 → Nat :=
  let arg0 : BitVec 32 := BitVec.ofNat 32 (i 0).val
  let c1_i32_4 : BitVec 32 := 1#32
  let v11 : BitVec 32 := Scalar.subi arg0 c1_i32_4
  let c400_i32 : BitVec 32 := 400#32
  let v12 : BitVec 32 := Scalar.muli v11 c400_i32
  let v24 : BitVec 32 := Scalar.addi v12 c0_i32_14
  let v25 : Index := Scalar.indexCast v24
  let c0_15 : Index := 0#32
  ![v25.toNat, 0]
def k0_cond3 (i : grid0.Coords) : BitVec 1 :=
  let arg0 : BitVec 32 := BitVec.ofNat 32 (i 0).val
  let c25_i32_2 : BitVec 32 := 25#32
  let v8 : BitVec 1 := Scalar.cmpi .sgt arg0 c25_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c25_i32 : BitVec 32 := 25#32
  let c0_i32 : BitVec 32 := 0#32
  let v2 : BitVec 1 := Scalar.cmpi .eq c25_i32 c0_i32
  let c1_i32_1 : BitVec 32 := 1#32
  let v3 : BitVec 32 := Scalar.select v2 c1_i32_1 c25_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32 : BitVec 32 := 2#32
  let v12 : BitVec 32 := Scalar.muli c2_i32 v11
  let c0_i32_5 : BitVec 32 := 0#32
  let v13 : BitVec 32 := Scalar.addi v12 c0_i32_5
  let c0_i32_6 : BitVec 32 := 0#32
  let c0_i32_7 : BitVec 32 := 0#32
  ![v13.toNat, c0_i32_6.toNat]

def cc0_transform_2 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c25_i32 : BitVec 32 := 25#32
  let c0_i32 : BitVec 32 := 0#32
  let v2 : BitVec 1 := Scalar.cmpi .eq c25_i32 c0_i32
  let c1_i32_1 : BitVec 32 := 1#32
  let v3 : BitVec 32 := Scalar.select v2 c1_i32_1 c25_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32 : BitVec 32 := 2#32
  let v12 : BitVec 32 := Scalar.muli c2_i32 v11
  let c1_i32_5 : BitVec 32 := 1#32
  let v13 : BitVec 32 := Scalar.addi v12 c1_i32_5
  let c0_i32_6 : BitVec 32 := 0#32
  let c0_i32_7 : BitVec 32 := 0#32
  ![v13.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c26_i32 : BitVec 32 := 26#32
  let v0 : BitVec 32 := Scalar.subi arg0 c26_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x10000_S200x10000_0_0 : ∀ a, (![0, 0] : Fin 2 → Nat) a + S200x10000.size a ≤ S200x10000.size a
  h_S200x10000 : 0 < S200x10000.numel
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  h_S200x16 : 0 < S200x16.numel
  shapeCasts_S200x16_S200x16 : S200x16.ShapeCasts S200x16
  inb_S10000x16_S10000x16_0_0 : ∀ a, (![0, 0] : Fin 2 → Nat) a + S10000x16.size a ≤ S10000x16.size a
  h_S10000x16 : 0 < S10000x16.numel
  inb_S400x16_S200x16_0_0 : ∀ a, (![0, 0] : Fin 2 → Nat) a + S200x16.size a ≤ S400x16.size a
  inb_S400x16_S200x16_200_0 : ∀ a, (![200, 0] : Fin 2 → Nat) a + S200x16.size a ≤ S400x16.size a
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S200x10000_S10000x32_S200x32_1_0_0_1_n_n_wf : DotDims.WF S200x10000 S10000x32 S200x32 [1] [0] [0] [1] [] []
  dot_S200x32_S32x16_S200x16_1_0_0_1_n_n_wf : DotDims.WF S200x32 S32x16 S200x16 [1] [0] [0] [1] [] []
  dot_S200x10000_S10000x16_S200x16_1_0_0_1_n_n_wf : DotDims.WF S200x10000 S10000x16 S200x16 [1] [0] [0] [1] [] []
  hrank0 : 0 < grid0.rank
  k0_off1_inb : ∀ i : grid0.Coords, ∀ (k0_h2 : k0_cond2 i = 1#1), ∀ (r : Fin 2), ∀ a, (k0_off1 i (BitVec.ofNat 32 (200 * r.val))) a + S200x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .f32 = 32 ∨ (Rect.block (s := S32x16) S32x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x16.size a ≤ S10000x16.size a
  hwx0_9 : ∀ i : grid0.Coords, EltTy.bits .f32 = 32 ∨ (Rect.block (s := S10000x16) S400x16.size (cc0_transform_9 i) (hinb0_9 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x32_S32x16_S200x16_1_0_0_1_n_n : DotDims S200x32 S32x16 S200x16 where
  lhsContracting := [1]
  rhsContracting := [0]
  lhsNonContracting := [0]
  rhsNonContracting := [1]
  lhsBatch := []
  rhsBatch := []
  wf := dot_S200x32_S32x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S400x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩
abbrev S10000x16 : Shape := ⟨2, ![10000, 16]⟩
abbrev S1x16 : Shape := ⟨2, ![1, 16]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S10000x64, .f32⟩
  | .hbm, ⟨9, _⟩ => ⟨S1x64, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x32, .f32⟩
  | .hbm, ⟨16, _⟩ => ⟨S1x32, .f32⟩
  | .hbm, ⟨17, _⟩ => ⟨S10000x32, .f32⟩
  | .hbm, ⟨18, _⟩ => ⟨S10000x32, .f32⟩
  | .hbm, ⟨19, _⟩ => ⟨S10000x32, .f32⟩
  | .hbm, ⟨20, _⟩ => ⟨S_, .f32⟩
  | .hbm, ⟨21, _⟩ => ⟨S10000x32, .f32⟩
  | .hbm, ⟨22, _⟩ => ⟨S10000x32, .f32⟩
  | .hbm, ⟨23, _⟩ => ⟨S_, .f32⟩
  | .hbm, ⟨24, _⟩ => ⟨S10000x32, .f32⟩
  | .hbm, ⟨25, _⟩ => ⟨S10000x32, .f32⟩
  | .hbm, ⟨26, _⟩ => ⟨S10000x16, .f32⟩
  | .hbm, ⟨27, _⟩ => ⟨S1x16, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000x16, .f32⟩
  | .hbm, ⟨33, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_call2_cst : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call3_cst : Ref sig .tc := ⟨.hbm, 31, rfl⟩
abbrev main_call3_v0 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The encoder as one function of its eight argument arrays, element by element, over the extended reals.

  With x : 10000 × 128 node features, adj : 10000 × 10000 a dense adjacency, and three affine layers
  (W_fc, b_fc), (W_g1, b_g1), (W_g2, b_g2):

    hidden = relu (x · W_fc + b_fc)                    10000 × 64
    lin1   = hidden · W_g1 + b_g1                      10000 × 32
    agg1   = relu (adj · lin1)                         10000 × 32
    lin2   = agg1 · W_g2 + b_g2                        10000 × 16
    out    = relu (adj · lin2)                         10000 × 16

  where relu v = max v 0 and every product of matrices is the plain sum over the contracted axis. Both programs of
  this certificate compute `out`: the kernel row block by row block in three phases over its grid, the reference by
  whole-array operations (with one more relu after `agg1`, which changes nothing since relu is idempotent).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns, indexed as the programs' rank-2 arrays are. -/
abbrev Mat (a b : Nat) : Type := (⟨2, ![a, b]⟩ : Shape).Idx → EReal
/-- A row of `a` extended reals, indexed as the programs' rank-1 arrays are. -/
abbrev Row (a : Nat) : Type := (⟨1, ![a]⟩ : Shape).Idx → EReal

variable (x : Mat 10000 128) (adj : Mat 10000 10000) (wfc : Mat 128 64) (bfc : Row 64)
  (wg1 : Mat 64 32) (bg1 : Row 32) (wg2 : Mat 32 16) (bg2 : Row 16)

/-- The first layer: relu (x · W_fc + b_fc), at row `r` and column `j`. -/
def hidden (r : Fin 10000) (j : Fin 64) : EReal :=
  max ((∑ k : Fin 128, x (ix2 r k) * wfc (ix2 k j)) + bfc (ix1 j)) 0

/-- The first graph layer's linear part: hidden · W_g1 + b_g1. -/
def lin1 (r : Fin 10000) (j : Fin 32) : EReal :=
  (∑ k : Fin 64, hidden x wfc bfc r k * wg1 (ix2 k j)) + bg1 (ix1 j)

/-- The first aggregation: relu (adj · lin1). -/
def agg1 (r : Fin 10000) (j : Fin 32) : EReal :=
  max (∑ k : Fin 10000, adj (ix2 r k) * lin1 x wfc bfc wg1 bg1 k j) 0

/-- The second graph layer's linear part: agg1 · W_g2 + b_g2. -/
def lin2 (r : Fin 10000) (j : Fin 16) : EReal :=
  (∑ k : Fin 32, agg1 x adj wfc bfc wg1 bg1 r k * wg2 (ix2 k j)) + bg2 (ix1 j)

/-- The result: relu (adj · lin2). -/
def out (r : Fin 10000) (j : Fin 16) : EReal :=
  max (∑ k : Fin 10000, adj (ix2 r k) * lin2 x adj wfc bfc wg1 bg1 wg2 bg2 k j) 0

/-- The result as an array of the programs' result shape. -/
def outArr : Mat 10000 16 := fun i => out x adj wfc bfc wg1 bg1 wg2 bg2 (i 0) (i 1)

/-- relu is idempotent on the extended reals. -/
theorem relu_relu (v : EReal) : max (max v 0) 0 = max v 0 := by
  rw [max_assoc, max_self]

end Cert.Spec

end
-- ==== Proof.RefIsSpec.lean ====
/-
  The reference program computes the encoder of Spec.lean.

  Stage by stage, at row r and column j: the first affine layer followed by relu is `hidden`; the second affine layer is
  `lin1`; the product with the adjacency followed by relu, and then by one more relu (idempotent), is `agg1`; the third
  affine layer is `lin2`; the last product with the adjacency followed by relu is `out`. Each product of matrices is the
  plain sum over the contracted axis; no sum is evaluated, the summands are identified term by term.
-/
import proofs.«109255_g1735166787695_cont_8to1_331_10_alg».proof.Proof.Gen.ReferenceIdeal.Read
import proofs.«109255_g1735166787695_cont_8to1_331_10_alg».proof.Proof.Spec

noncomputable section

open scoped BigOperators

namespace Cert.RefIsSpec

open Cert.ReferenceIdeal Cert.ReferenceIdeal.Gen Cert.ReferenceIdeal.Read Idealize.ShloMosaic Idealize.ShloMosaic.ValueIdx

variable (a0 : (⟨S10000x128, .f32⟩ : BufTy).Contents (Elt Ideal)) (a1 : (⟨S10000x10000, .f32⟩ : BufTy).Contents (Elt Ideal))
  (a2 : (⟨S128x64, .f32⟩ : BufTy).Contents (Elt Ideal)) (a3 : (⟨S64, .f32⟩ : BufTy).Contents (Elt Ideal))
  (a4 : (⟨S64x32, .f32⟩ : BufTy).Contents (Elt Ideal)) (a5 : (⟨S32, .f32⟩ : BufTy).Contents (Elt Ideal))
  (a6 : (⟨S32x16, .f32⟩ : BufTy).Contents (Elt Ideal)) (a7 : (⟨S16, .f32⟩ : BufTy).Contents (Elt Ideal))

/-- The first layer of the reference, relu (x · W_fc + b_fc), at row `r` and column `j`. -/
theorem hidden_eq (r : Fin 10000) (j : Fin 64) :
    val_main_v4 (F := Ideal) a0 a2 a3 (ix2 r j) = Cert.Spec.hidden a0 a2 a3 r j := by
  have el : ∀ k : Fin 128, lidx_main_v0 (ix2 r j) k = ix2 r k := fun k => funext fun a => Fin.ext (by match a with | ⟨0, _⟩ => rfl | ⟨1, _⟩ => rfl)
  have er : ∀ k : Fin 128, ridx_main_v0 (ix2 r j) k = ix2 k j := fun k => funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, el, er, eb]
  rfl

/-- The second affine layer of the reference, hidden · W_g1 + b_g1, at row `r` and column `j`. -/
theorem lin1_eq (r : Fin 10000) (j : Fin 32) :
    val_main_v8 (F := Ideal) a0 a2 a3 a4 a5 (ix2 r j) = Cert.Spec.lin1 a0 a2 a3 a4 a5 r j := by
  have el : ∀ k : Fin 64, lidx_main_v5 (ix2 r j) k = ix2 r k := fun k => funext fun a => Fin.ext (by match a with | ⟨0, _⟩ => rfl | ⟨1, _⟩ => rfl)
  have er : ∀ k : Fin 64, ridx_main_v5 (ix2 r j) k = ix2 k j := fun k => funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v8_apply, val_main_v5_apply, val_main_v7_apply, val_main_v6_apply]
  simp only [Ideal.addf_def, el, er, eb, hidden_eq]
  rfl

/-- The first aggregation of the reference, relu (relu (adj · lin1)) = relu (adj · lin1), at row `r` and column `j`. -/
theorem agg1_eq (r : Fin 10000) (j : Fin 32) :
    val_main_v11 (F := Ideal) a0 a1 a2 a3 a4 a5 (ix2 r j) = Cert.Spec.agg1 a0 a1 a2 a3 a4 a5 r j := by
  have el : ∀ k : Fin 10000, lidx_main_v9 (ix2 r j) k = ix2 r k := fun k => funext fun a => Fin.ext (by match a with | ⟨0, _⟩ => rfl | ⟨1, _⟩ => rfl)
  have er : ∀ k : Fin 10000, ridx_main_v9 (ix2 r j) k = ix2 k j := fun k => funext fun a => Fin.ext (by match a with | ⟨0, _⟩ => rfl | ⟨1, _⟩ => rfl)
  rw [val_main_v11_apply, val_main_v10_apply, val_main_v9_apply, val_main_call1_v0_apply,
    val_main_call1_cst_apply, val_main_call2_v0_apply, val_main_call2_cst_apply]
  simp only [Ideal.maximumf_def, Ideal.ofBits_def, Ideal.ofBits_zero_f32, el, er, lin1_eq]
  rw [Cert.Spec.relu_relu]
  rfl

/-- The third affine layer of the reference, agg1 · W_g2 + b_g2, at row `r` and column `j`. -/
theorem lin2_eq (r : Fin 10000) (j : Fin 16) :
    val_main_v15 (F := Ideal) a0 a1 a2 a3 a4 a5 a6 a7 (ix2 r j) = Cert.Spec.lin2 a0 a1 a2 a3 a4 a5 a6 a7 r j := by
  have el : ∀ k : Fin 32, lidx_main_v12 (ix2 r j) k = ix2 r k := fun k => funext fun a => Fin.ext (by match a with | ⟨0, _⟩ => rfl | ⟨1, _⟩ => rfl)
  have er : ∀ k : Fin 32, ridx_main_v12 (ix2 r j) k = ix2 k j := fun k => funext fun a => Fin.ext (by match a with | ⟨0, _⟩ => rfl | ⟨1, _⟩ => rfl)
  have eb : idx_main_v13 (idx_main_v14 (ix2 r j)) = ix1 j :=
    funext fun a => Fin.ext (by match a with | ⟨0, _⟩ => rfl)
  rw [val_main_v15_apply, val_main_v12_apply, val_main_v14_apply, val_main_v13_apply]
  simp only [Ideal.addf_def, el, er, eb, agg1_eq]
  rfl

/-- The result of the reference, relu (adj · lin2), at row `r` and column `j`. -/
theorem out_eq (r : Fin 10000) (j : Fin 16) :
    val_main_v17 (F := Ideal) a0 a1 a2 a3 a4 a5 a6 a7 (ix2 r j) = Cert.Spec.out a0 a1 a2 a3 a4 a5 a6 a7 r j := by
  have el : ∀ k : Fin 10000, lidx_main_v16 (ix2 r j) k = ix2 r k := fun k => funext fun a => Fin.ext (by match a with | ⟨0, _⟩ => rfl | ⟨1, _⟩ => rfl)
  have er : ∀ k : Fin 10000, ridx_main_v16 (ix2 r j) k = ix2 k j := fun k => funext fun a => Fin.ext (by match a with | ⟨0, _⟩ => rfl | ⟨1, _⟩ => rfl)
  rw [val_main_v17_apply, val_main_v16_apply, val_main_call3_v0_apply, val_main_call3_cst_apply]
  simp only [Ideal.maximumf_def, Ideal.ofBits_def, Ideal.ofBits_zero_f32, el, er, lin2_eq]
  rfl

/-- The reference's result array is the specification's, as functions of the eight argument arrays. -/
theorem ref_eq_spec :
    val_main_v17 (F := Ideal) a0 a1 a2 a3 a4 a5 a6 a7 = Cert.Spec.outArr a0 a1 a2 a3 a4 a5 a6 a7 := by
  funext i
  obtain ⟨r, j, rfl⟩ : ∃ (r : Fin 10000) (j : Fin 16), i = ix2 r j := ⟨i 0, i 1, eq_ix2 i⟩
  exact out_eq a0 a1 a2 a3 a4 a5 a6 a7 r j

/-- The same, for the term the reference's run states for its result: that term is the last stage. -/
theorem run_term_eq_spec :
    maximumf (Host.dotGeneral (F := Ideal) (φ₁ := .f32) (φ₂ := .f32) dot_S10000x10000_S10000x16_S10000x16_1_0_0_1_n_n none a1 (addf (Host.dotGeneral (F := Ideal) (φ₁ := .f32) (φ₂ := .f32) dot_S10000x32_S32x16_S10000x16_1_0_0_1_n_n none (maximumf (maximumf (Host.dotGeneral (F := Ideal) (φ₁ := .f32) (φ₂ := .f32) dot_S10000x10000_S10000x32_S10000x32_1_0_0_1_n_n none a1 (addf (Host.dotGeneral (F := Ideal) (φ₁ := .f32) (φ₂ := .f32) dot_S10000x64_S64x32_S10000x32_1_0_0_1_n_n none (maximumf (addf (Host.dotGeneral (F := Ideal) (φ₁ := .f32) (φ₂ := .f32) dot_S10000x128_S128x64_S10000x64_1_0_0_1_n_n none a0 a2) (broadcastInDim S10000x64 ![0, 1] bcast_S1x64_S10000x64_0_1 (broadcastInDim S1x64 ![1] bcast_S64_S1x64_1 a3))) (broadcastInDim S10000x64 ![] bcast_S_S10000x64 (constant (F := Ideal) S_ .f32 0x00000000#32))) a4) (broadcastInDim S10000x32 ![0, 1] bcast_S1x32_S10000x32_0_1 (broadcastInDim S1x32 ![1] bcast_S32_S1x32_1 a5)))) (broadcastInDim S10000x32 ![] bcast_S_S10000x32 (constant (F := Ideal) S_ .f32 0x00000000#32))) (broadcastInDim S10000x32 ![] bcast_S_S10000x32 (constant (F := Ideal) S_ .f32 0x00000000#32))) a6) (broadcastInDim S10000x16 ![0, 1] bcast_S1x16_S10000x16_0_1 (broadcastInDim S1x16 ![1] bcast_S16_S1x16_1 a7)))) (broadcastInDim S10000x16 ![] bcast_S_S10000x16 (constant (F := Ideal) S_ .f32 0x00000000#32))
      = Cert.Spec.outArr a0 a1 a2 a3 a4 a5 a6 a7 :=
  (val_main_v17_eq (F := Ideal) a0 a1 a2 a3 a4 a5 a6 a7).trans (ref_eq_spec a0 a1 a2 a3 a4 a5 a6 a7)

end Cert.RefIsSpec

end
-- ==== Proof.K.Base.lean ====
/-
  The region of `Kernel`'s one kernel launch as the proofs below see it: what every buffer holds when the region is
  entered (the three bias rows reshaped to 1 × n by the host lines before it, everything else as launched), each
  window's block at a grid point, and the schedule of the 51 grid points. Point 0 computes the first two layers into
  the first scratch; points 1 … 25 each fill 400 rows of the second scratch; points 26 … 50 each write 400 rows of
  the result. The adjacency is handed to the kernel through two windows, of the even and of the odd 200-row blocks.
-/
import proofs.«109255_g1735166787695_cont_8to1_331_10_alg».proof.Proof.Gen.Kernel.Launch
import proofs.«109255_g1735166787695_cont_8to1_331_10_alg».proof.Proof.Gen.Kernel.Skeleton
import proofs.«109255_g1735166787695_cont_8to1_331_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three reshapes of the bias rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the three reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not (unfetched, the block index
    has not moved), for any proof data whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The three phases -/

/-- The first branch's condition: the grid coordinate is 0. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The second branch's: the coordinate is between 1 and 25. -/
abbrev cond2 (i : grid0.Coords) : Prop := k0_cond2 i = 1#1
theorem hcond2 : ∀ t : Fin cfg0.N, cond2 (grid0.coords t) ↔ (1 ≤ t.val ∧ t.val ≤ 25) :=
  (by decide +kernel : ∀ t : Fin grid0.N, cond2 (grid0.coords t) ↔ (1 ≤ t.val ∧ t.val ≤ 25))
/-- The third branch's: the coordinate is above 25. -/
abbrev cond3 (i : grid0.Coords) : Prop := k0_cond3 i = 1#1
theorem hcond3 : ∀ t : Fin cfg0.N, cond3 (grid0.coords t) ↔ 25 < t.val :=
  (by decide +kernel : ∀ t : Fin grid0.N, cond3 (grid0.coords t) ↔ 25 < t.val)

/-- Where the second phase stores: rows 400 (t − 1) + 200 k onwards, all 16 columns. -/
theorem off1_eq : ∀ t : Fin cfg0.N, 1 ≤ t.val → t.val ≤ 25 → ∀ k : Fin 2,
    k0_off1 (grid0.coords t) (BitVec.ofNat 32 (200 * k.val)) 0 = 400 * (t.val - 1) + 200 * k.val
    ∧ k0_off1 (grid0.coords t) (BitVec.ofNat 32 (200 * k.val)) 1 = 0 :=
  (by decide +kernel : ∀ t : Fin grid0.N, 1 ≤ t.val → t.val ≤ 25 → ∀ k : Fin 2,
    k0_off1 (grid0.coords t) (BitVec.ofNat 32 (200 * k.val)) 0 = 400 * (t.val - 1) + 200 * k.val
    ∧ k0_off1 (grid0.coords t) (BitVec.ofNat 32 (200 * k.val)) 1 = 0)

/-! The result window is stored only in the third phase: before it the window is idle and nothing is written back. -/
theorem idle9_early : ∀ t : Fin cfg0.N, t.val ≤ 25 → cfg0.idle 9 (grid0.coords t) = true := by decide +kernel
theorem noFlush9_early : ∀ t : Fin cfg0.N, t.val ≤ 25 → (cfg0.win 9).flush t = false := by decide +kernel
theorem live9_late : ∀ t : Fin cfg0.N, 25 < t.val → cfg0.idle 9 (grid0.coords t) = false := by decide +kernel
/-- In the third phase every point writes its block back: block t − 26 of the result. -/
theorem flush9_late : ∀ t : Fin cfg0.N, 25 < t.val → (cfg0.win 9).flush t = true := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x16 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x16 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x16 .f32 := win0_9.stage (cfg0.slots t 9)
abbrev hs9 (t : Fin cfg0.N) : (ms9 t).IsWhole := hstage0_9 ((cfg0.slots t 9).cast nbuf0_9)
/-- The two scratch buffers: 10000 × 32 for the first graph layer's linear part, 10000 × 16 for the second's. -/
abbrev scM0 : Memref sig .tc .vmem S10000x32 .f32 := Memref.whole cc0_scratch0
abbrev scM1 : Memref sig .tc .vmem S10000x16 .f32 := Memref.whole cc0_scratch1

/-- What the launch hands the region besides the windows: the two scratch buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Frm

end
-- ==== Proof.K.RunA.lean ====
/-
  The first phase of the kernel body (grid point 0): it loads the features, the first two weight matrices and their bias rows, and stores the first graph layer's linear part over the whole first scratch buffer. Nothing else is touched.
-/
import proofs.«109255_g1735166787695_cont_8to1_331_10_alg».proof.Proof.K.Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run in this phase on any whole memrefs: the buffers it loads held at their contents and handed back as they
    were, the buffer it stores into handed back with its stores written over what it held (the list of stores is what
    the run finds). -/
noncomputable def kernelRun_A (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : cond1 i) (hc2 : ¬cond2 i) (hc3 : ¬cond3 i)
    (x1 : Vec F S10000x128 .f32) (x4 : Vec F S128x64 .f32) (x5 : Vec F S1x64 .f32) (x6 : Vec F S64x32 .f32) (x7 : Vec F S1x32 .f32) :
    { LS0 : List (View.Piece (Elt F) S10000x32 .f32) //
      ∀ (E : Set ℕ) (K : PUnit → sProp 𝕄),
        iprop(owns (c : Thread nD τ) arg1 fullShare x1 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d)
            ∗ (iprop(owns (c : Thread nD τ) arg1 fullShare x1 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg11.view.loc (c : Thread nD τ) ↦[arg11.view.set]{fullShare} arg11.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f1, %hf1, H1⟩, ⟨%f4, %hf4, H4⟩, ⟨%f5, %hf5, H5⟩, ⟨%f6, %hf6, H6⟩, ⟨%f7, %hf7, H7⟩, ⟨%d11, %f11, -, H11⟩, Hk⟩
    obtain rfl := harg1.eq_unread hf1; obtain rfl := harg4.eq_unread hf4; obtain rfl := harg5.eq_unread hf5; obtain rfl := harg6.eq_unread hf6; obtain rfl := harg7.eq_unread hf7
    sl_exec (disch := first | exact hc1 | exact hc2 | exact hc3)
    sl_step
    iapply Hk
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H11

end Cert.Kernel.Frm

end
-- ==== Proof.K.RunB.lean ====
/-
  The second phase of the kernel body (grid points 1 to 25): it loads the two 200-row blocks of the adjacency, the first scratch buffer, the last weight matrix and its bias row, and stores two 200-row pieces into the second scratch buffer, one after the other, at the rows the grid point names; the rest of that buffer keeps what it held.
-/
import proofs.«109255_g1735166787695_cont_8to1_331_10_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run in this phase on any whole memrefs: the buffers it loads held at their contents and handed back as they
    were, the buffer it stores into handed back with its stores written over what it held (the list of stores is what
    the run finds). -/
noncomputable def kernelRun_B (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : cond2 i) (hc3 : ¬cond3 i)
    (x2 : Vec F S200x10000 .f32) (x3 : Vec F S200x10000 .f32) (x8 : Vec F S32x16 .f32) (x9 : Vec F S1x16 .f32) (xs0 : Vec F S10000x32 .f32) (xs1 : Vec F S10000x16 .f32) :
    { LS1 : List (View.Piece (Elt F) S10000x16 .f32) //
      ∀ (E : Set ℕ) (K : PUnit → sProp 𝕄),
        iprop(owns (c : Thread nD τ) arg2 fullShare x2 ∗ owns (c : Thread nD τ) arg3 fullShare x3 ∗ owns (c : Thread nD τ) arg8 fullShare x8 ∗ owns (c : Thread nD τ) arg9 fullShare x9 ∗ owns (c : Thread nD τ) arg11 fullShare xs0 ∗ owns (c : Thread nD τ) arg12 fullShare xs1
            ∗ (iprop(owns (c : Thread nD τ) arg2 fullShare x2 ∗ owns (c : Thread nD τ) arg3 fullShare x3 ∗ owns (c : Thread nD τ) arg8 fullShare x8 ∗ owns (c : Thread nD τ) arg9 fullShare x9 ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f2, %hf2, H2⟩, ⟨%f3, %hf3, H3⟩, ⟨%f8, %hf8, H8⟩, ⟨%f9, %hf9, H9⟩, ⟨%f11, %hf11, H11⟩, ⟨%f12, %hf12, H12⟩, Hk⟩
    obtain rfl := harg2.eq_unread hf2; obtain rfl := harg3.eq_unread hf3; obtain rfl := harg8.eq_unread hf8; obtain rfl := harg9.eq_unread hf9; obtain rfl := harg11.eq_unread hf11; obtain rfl := harg12.eq_unread hf12
    sl_exec (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    iexact H12

end Cert.Kernel.Frm

end
-- ==== Proof.K.RunC.lean ====
/-
  The third phase of the kernel body (grid points 26 to 50): it loads the two 200-row blocks of the adjacency and the second scratch buffer, and stores the two halves of a 400-row block of the result into the result window's staging buffer.
-/
import proofs.«109255_g1735166787695_cont_8to1_331_10_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run in this phase on any whole memrefs: the buffers it loads held at their contents and handed back as they
    were, the buffer it stores into handed back with its stores written over what it held (the list of stores is what
    the run finds). -/
noncomputable def kernelRun_C (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : ¬cond2 i) (hc3 : cond3 i)
    (x2 : Vec F S200x10000 .f32) (x3 : Vec F S200x10000 .f32) (xs1 : Vec F S10000x16 .f32) :
    { L9 : List (View.Piece (Elt F) S400x16 .f32) //
      ∀ (E : Set ℕ) (K : PUnit → sProp 𝕄),
        iprop(owns (c : Thread nD τ) arg2 fullShare x2 ∗ owns (c : Thread nD τ) arg3 fullShare x3 ∗ owns (c : Thread nD τ) arg12 fullShare xs1 ∗ (∃ d, owns (c : Thread nD τ) arg10 fullShare d)
            ∗ (iprop(owns (c : Thread nD τ) arg2 fullShare x2 ∗ owns (c : Thread nD τ) arg3 fullShare x3 ∗ owns (c : Thread nD τ) arg12 fullShare xs1 ∗ (∃ f, arg10.view.loc (c : Thread nD τ) ↦[arg10.view.set]{fullShare} arg10.view.writes (Elt F) f L9)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f2, %hf2, H2⟩, ⟨%f3, %hf3, H3⟩, ⟨%f12, %hf12, H12⟩, ⟨%d10, %f10, -, H10⟩, Hk⟩
    obtain rfl := harg2.eq_unread hf2; obtain rfl := harg3.eq_unread hf3; obtain rfl := harg12.eq_unread hf12
    sl_exec (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H12]
    · iexists _; isplitr; · ipureintro; exact harg12.read_unread _
      iexact H12
    iexists _; iexact H10

end Cert.Kernel.Frm

end
-- ==== Proof.K.Data.lean ====
/-
  What the buffers of `Kernel`'s kernel hold from grid point to grid point, named through the values the body stores.

  After point 0 the first scratch holds `S0`: the first graph layer's linear part of all 10000 rows, computed from the
  blocks of the features, the first two weight matrices and their bias rows. A point t of the second phase (1 ≤ t ≤ 25)
  stores two 200-row halves into the second scratch, at rows 400 (t − 1) and 400 (t − 1) + 200: `h2half t 0` from the
  even adjacency block of the point and `h2half t 1` from the odd one. So before point n the second scratch agrees
  with those halves on the rows of every earlier second-phase point (`Inv1 n`), and from point 26 on it is the one
  array `H2full`. A point t of the third phase leaves in the result window's buffer `out9 t`: rows 0 … 199 from the
  even adjacency block against `H2full`, rows 200 … 399 from the odd one.
-/
import proofs.«109255_g1735166787695_cont_8to1_331_10_alg».proof.Proof.K.RunC
import Idealize.ShloMosaic.Lib.WritesUnit
import Idealize.ShloMosaic.Lib.WholeRead
import Idealize.ShloMosaic.Lib.ValueIdx

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Loads of whole buffers, and the three store lists -/

theorem zero2 : (![0, 0] : Fin 2 → ℕ) = fun _ => 0 := by funext a; fin_cases a <;> rfl

/-- A load of a whole buffer through its own memref, the memref held at the contents that read `X`, is `X`. -/
theorem readAt_whole_unread {κ : Kind} {sp : Space} {S : Shape} {e : EltTy} {M : Memref sig κ sp S e} (h : M.IsWhole)
    {off : Fin S.rank → ℕ} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

/-- The first phase's one store: the whole first scratch, at the first graph layer's linear part. -/
theorem LS0_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : cond1 i) (hc2 : ¬cond2 i) (hc3 : ¬cond3 i)
    (x1 : Vec F S10000x128 .f32) (x4 : Vec F S128x64 .f32) (x5 : Vec F S1x64 .f32) (x6 : Vec F S64x32 .f32) (x7 : Vec F S1x32 .f32) :
    (kernelRun_A c i arg1 harg1 arg2 harg2 arg3 harg3 arg4 harg4 arg5 harg5 arg6 harg6 arg7 harg7 arg8 harg8 arg9 harg9 arg10 harg10 arg11 harg11 arg12 harg12 hc1 hc2 hc3 x1 x4 x5 x6 x7).1
      = [⟨Rect.unit ![0, 0] S10000x32.size inb_S10000x32_S10000x32_0_0, k0_pay1 x1 x4 x5 x6 x7⟩] := by
  unfold kernelRun_A; dsimp only
  rw [readAt_whole_unread harg1 zero2, readAt_whole_unread harg4 zero2, readAt_whole_unread harg5 zero2,
    readAt_whole_unread harg6 zero2, readAt_whole_unread harg7 zero2]

/-- The second phase's two stores, the later one first. -/
theorem LS1_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : cond2 i) (hc3 : ¬cond3 i)
    (x2 x3 : Vec F S200x10000 .f32) (x8 : Vec F S32x16 .f32) (x9 : Vec F S1x16 .f32) (xs0 : Vec F S10000x32 .f32) (xs1 : Vec F S10000x16 .f32) :
    (kernelRun_B c i arg1 harg1 arg2 harg2 arg3 harg3 arg4 harg4 arg5 harg5 arg6 harg6 arg7 harg7 arg8 harg8 arg9 harg9 arg10 harg10 arg11 harg11 arg12 harg12 hc1 hc2 hc3 x2 x3 x8 x9 xs0 xs1).1
      = [⟨Rect.unit (k0_off1 i 200#32) S200x16.size (k0_off1_inb i hc2 1), k0_pay2 (k0_pay6 x3 xs0 x8 x9)⟩,
         ⟨Rect.unit (k0_off1 i 0#32) S200x16.size (k0_off1_inb i hc2 0), k0_pay5 x2 xs0 x8 x9⟩] := by
  unfold kernelRun_B; dsimp only; unfold kernelRun_B.sl.r
  rw [readAt_whole_unread harg2 zero2, readAt_whole_unread harg3 zero2, readAt_whole_unread harg8 zero2,
    readAt_whole_unread harg9 zero2, readAt_whole_unread harg11 zero2]

/-- The third phase's two stores, the later one first. -/
theorem L9_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : ¬cond2 i) (hc3 : cond3 i)
    (x2 x3 : Vec F S200x10000 .f32) (xs1 : Vec F S10000x16 .f32) :
    (kernelRun_C c i arg1 harg1 arg2 harg2 arg3 harg3 arg4 harg4 arg5 harg5 arg6 harg6 arg7 harg7 arg8 harg8 arg9 harg9 arg10 harg10 arg11 harg11 arg12 harg12 hc1 hc2 hc3 x2 x3 xs1).1
      = [⟨Rect.unit ![200, 0] S200x16.size inb_S400x16_S200x16_200_0, k0_pay4 x3 xs1⟩,
         ⟨Rect.unit ![0, 0] S200x16.size inb_S400x16_S200x16_0_0, k0_pay3 x2 xs1⟩] := by
  unfold kernelRun_C; dsimp only
  rw [readAt_whole_unread harg2 zero2, readAt_whole_unread harg3 zero2, readAt_whole_unread harg12 zero2]

/-! ## The phases at a point, from its position -/

theorem N51 (t : Fin cfg0.N) : t.val < 51 := lt_of_lt_of_eq t.isLt (show cfg0.N = 51 from N_0)

theorem hA1 (t : Fin cfg0.N) (h : t.val = 0) : cond1 (grid0.coords t) := (hcond1 t).mpr h
theorem hA2 (t : Fin cfg0.N) (h : t.val = 0) : ¬cond2 (grid0.coords t) := fun hc => by have := (hcond2 t).mp hc; omega
theorem hA3 (t : Fin cfg0.N) (h : t.val = 0) : ¬cond3 (grid0.coords t) := fun hc => by have := (hcond3 t).mp hc; omega
theorem hB1 (t : Fin cfg0.N) (h : t.val ≠ 0) : ¬cond1 (grid0.coords t) := fun hc => h ((hcond1 t).mp hc)
theorem hB2 (t : Fin cfg0.N) (h : t.val ≠ 0) (hl : t.val ≤ 25) : cond2 (grid0.coords t) := (hcond2 t).mpr ⟨by omega, hl⟩
theorem hB3 (t : Fin cfg0.N) (hl : t.val ≤ 25) : ¬cond3 (grid0.coords t) := fun hc => by have := (hcond3 t).mp hc; omega
theorem hC2 (t : Fin cfg0.N) (hl : 25 < t.val) : ¬cond2 (grid0.coords t) := fun hc => by have := (hcond2 t).mp hc; omega
theorem hC3 (t : Fin cfg0.N) (hl : 25 < t.val) : cond3 (grid0.coords t) := (hcond3 t).mpr hl

/-! ## What the scratch buffers and the result window hold -/

/-- The first grid point. -/
def t0 : Fin cfg0.N := ⟨0, by rw [show cfg0.N = 51 from N_0]; decide⟩

/-- The first scratch after point 0: the first graph layer's linear part of every row. -/
def S0 (c : Dev nD) : Vec F S10000x32 .f32 :=
  k0_pay1 (iblk m c 0 t0) (iblk m c 3 t0) (iblk m c 4 t0) (iblk m c 5 t0) (iblk m c 6 t0)

/-- The two 200-row halves a point of the second phase stores into the second scratch. -/
def h2half (c : Dev nD) (t : Fin cfg0.N) (k : Fin 2) : FVec F S200x16 .f32 :=
  match k with
  | ⟨0, _⟩ => k0_pay5 (iblk m c 1 t) (S0 m c) (iblk m c 7 t) (iblk m c 8 t)
  | ⟨1, _⟩ => k0_pay2 (k0_pay6 (iblk m c 2 t) (S0 m c) (iblk m c 7 t) (iblk m c 8 t))

/-- Before point `n` the second scratch holds, on the rows of every earlier point of the second phase, that point's halves. -/
def Inv1 (c : Dev nD) (n : ℕ) (d : Vec F S10000x16 .f32) : Prop :=
  ∀ t : Fin cfg0.N, 1 ≤ t.val → t.val < n → t.val ≤ 25 → ∀ (k : Fin 2) (y : S200x16.Idx) (i : S10000x16.Idx),
    (i 0).val = 400 * (t.val - 1) + 200 * k.val + (y 0).val → (i 1).val = (y 1).val → d i = h2half m c t k y

/-- The second scratch once the second phase is over: row r is row r mod 200 of the half that holds it. -/
def H2full (c : Dev nD) : Vec F S10000x16 .f32 := fun i =>
  h2half m c ⟨(i 0).val / 400 + 1, by have := idx2_lt0 i; rw [show cfg0.N = 51 from N_0]; omega⟩
    ⟨(i 0).val % 400 / 200, by omega⟩ (ix2 ⟨(i 0).val % 200, by omega⟩ (i 1))

theorem inv1_one (c : Dev nD) (d : Vec F S10000x16 .f32) : Inv1 m c 1 d := fun t h1 h2 => by omega

/-- Once every point of the second phase has run, the second scratch is `H2full`. -/
theorem inv1_full (c : Dev nD) (n : ℕ) (hn : 25 < n) (d : Vec F S10000x16 .f32) (h : Inv1 m c n d) : d = H2full m c := by
  funext i
  have hi := idx2_lt0 i
  exact h ⟨(i 0).val / 400 + 1, by rw [show cfg0.N = 51 from N_0]; omega⟩ (by show 1 ≤ (i 0).val / 400 + 1; omega)
    (by show (i 0).val / 400 + 1 < n; omega) (by show (i 0).val / 400 + 1 ≤ 25; omega)
    ⟨(i 0).val % 400 / 200, by omega⟩ (ix2 ⟨(i 0).val % 200, by omega⟩ (i 1)) i
    (by show (i 0).val = 400 * ((i 0).val / 400 + 1 - 1) + 200 * ((i 0).val % 400 / 200) + (i 0).val % 200; omega) rfl

/-- The third phase stores nothing into the second scratch: the invariant carries over. -/
theorem inv1_late (c : Dev nD) (n : ℕ) (hn : 25 < n) (d : Vec F S10000x16 .f32) (h : Inv1 m c n d) : Inv1 m c (n + 1) d :=
  fun t h1 _ h3 => h t h1 (by omega) h3

/-- What a point of the third phase leaves in the result window's buffer. -/
def out9 (c : Dev nD) (t : Fin cfg0.N) : Vec F S400x16 .f32 := fun y =>
  if h : (y 0).val < 200 then k0_pay3 (iblk m c 1 t) (H2full m c) (ix2 ⟨(y 0).val, h⟩ (y 1))
  else k0_pay4 (iblk m c 2 t) (H2full m c) (ix2 ⟨(y 0).val - 200, by have := idx2_lt0 y; omega⟩ (y 1))

end Cert.Kernel.Frm

end
-- ==== Proof.K.Body.lean ====
/-
  The proof data of `Kernel`'s kernel launch and its body obligation: at every grid point, from the invariant on
  the two scratch buffers and every window's staging buffer at what it then holds, the body runs to the invariant of the
  next point and every staging buffer at what the proof data says it leaves.
-/
import proofs.«109255_g1735166787695_cont_8to1_331_10_alg».proof.Proof.K.Data

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Reading the buffers after each phase's stores -/

/-- After the first phase's store the first scratch reads `S0`, whatever it held. -/
theorem read_LS0 (c : Dev nD) (f : scM0.view.ty.Contents (Elt F)) :
    scM0.view.read (Elt F) (scM0.view.writes (Elt F) f
      (kernelRun_A c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) scM0 (Memref.isWhole_whole _) scM1 (Memref.isWhole_whole _) (hA1 t0 rfl) (hA2 t0 rfl) (hA3 t0 rfl)
        (iblk m c 0 t0) (iblk m c 3 t0) (iblk m c 4 t0) (iblk m c 5 t0) (iblk m c 6 t0)).1) = S0 m c := by
  rw [LS0_eq]; funext y
  exact View.read_writes_cons_rows_of_mem _ _ _ _ _ y y rfl (Nat.zero_add _).symm rfl

/-- After a third-phase point's two stores the result window's buffer reads `out9`, whatever it held. -/
theorem read_L9 (c : Dev nD) (t : Fin cfg0.N) (hl : 25 < t.val) (f : (ms9 t).view.ty.Contents (Elt F)) :
    (ms9 t).view.read (Elt F) ((ms9 t).view.writes (Elt F) f
      (kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t (by omega)) (hC2 t hl) (hC3 t hl)
        (iblk m c 1 t) (iblk m c 2 t) (H2full m c)).1) = out9 m c t := by
  rw [L9_eq]; funext y; unfold out9
  by_cases h : (y 0).val < 200
  · rw [dif_pos h, View.read_writes_cons_rows_of_not_mem _ _ _ _ _ y rfl (rfl : S200x16.size 0 = 200) (Or.inl h)]
    exact View.read_writes_cons_rows_of_mem _ _ _ _ _ y (ix2 ⟨(y 0).val, h⟩ (y 1)) rfl (Nat.zero_add _).symm rfl
  · rw [dif_neg h]
    exact View.read_writes_cons_rows_of_mem _ _ _ _ _ y (ix2 ⟨(y 0).val - 200, by have := idx2_lt0 y; omega⟩ (y 1)) rfl
      (by show (y 0).val = 200 + ((y 0).val - 200); omega) rfl

/-- A second-phase point's two stores extend the invariant on the second scratch by the point's own rows. -/
theorem inv1_step (c : Dev nD) (t : Fin cfg0.N) (hz : t.val ≠ 0) (hl : t.val ≤ 25) (d : Vec F S10000x16 .f32) (hd : Inv1 m c t.val d) :
    Inv1 m c (t.val + 1) (scM1.view.read (Elt F) (scM1.view.writes (Elt F) ((Memref.isWhole_whole _ : scM1.IsWhole).unread d)
      (kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t hz) (hB2 t hz hl) (hB3 t hl)
        (iblk m c 1 t) (iblk m c 2 t) (iblk m c 7 t) (iblk m c 8 t) (S0 m c) d).1)) := by
  rw [LS1_eq]
  intro t' h1 h2 h3 k y i hi0 hi1
  obtain ⟨o0, o0'⟩ := off1_eq t (by omega) hl 0
  obtain ⟨o1, o1'⟩ := off1_eq t (by omega) hl 1
  have e0 : k0_off1 (grid0.coords t) 0#32 = ![400 * (t.val - 1), 0] := by
    funext a; fin_cases a
    · exact o0
    · exact o0'
  have e1 : k0_off1 (grid0.coords t) 200#32 = ![400 * (t.val - 1) + 200, 0] := by
    funext a; fin_cases a
    · exact o1
    · exact o1'
  have hk := k.isLt
  have hy := idx2_lt0 y
  by_cases ht : t'.val < t.val
  · rw [View.read_writes_cons_rows_of_not_mem _ _ _ _ _ i e1 (rfl : S200x16.size 0 = 200) (by omega),
      View.read_writes_cons_rows_of_not_mem _ _ _ _ _ i e0 (rfl : S200x16.size 0 = 200) (by omega),
      View.writes_nil, (Memref.isWhole_whole _ : scM1.IsWhole).read_unread]
    exact hd t' h1 ht h3 k y i hi0 hi1
  · obtain rfl : t' = t := Fin.ext (by omega)
    match k, hi0 with
    | ⟨0, _⟩, hi0 =>
      have hi0' : (i 0).val = 400 * (t'.val - 1) + (y 0).val := by simpa using hi0
      have hy := idx2_lt0 y
      rw [View.read_writes_cons_rows_of_not_mem _ _ _ _ _ i e1 (rfl : S200x16.size 0 = 200) (by omega)]
      exact View.read_writes_cons_rows_of_mem _ _ _ _ _ i y e0 hi0' hi1
    | ⟨1, _⟩, hi0 =>
      have hi0' : (i 0).val = 400 * (t'.val - 1) + 200 + (y 0).val := by simpa using hi0
      exact View.read_writes_cons_rows_of_mem _ _ _ _ _ i y e1 hi0' hi1

/-! ## The invariant and the proof data -/

/-- The two scratch buffers the launch hands the region, each whole at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The region invariant before position `n`: before the first point both scratch buffers hold anything; afterwards the
    first holds `S0` and the second satisfies `Inv1 n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) scM0 fullShare (S0 m c) ∗ (∃ d, ⌜Inv1 m c (n + 1) d⌝ ∗ owns (c : Thread nD τ) scM1 fullShare d))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (S0 m c) ∗ (∃ d, ⌜Inv1 m c (n + 1) d⌝ ∗ owns (c : Thread nD τ) scM1 fullShare d)) := rfl

theorem PhiS_pos (c : Dev nD) (n : ℕ) (h : n ≤ cfg0.N) (hz : n ≠ 0) :
    PhiS m c n h = iprop(owns (c : Thread nD τ) scM0 fullShare (S0 m c) ∗ (∃ d, ⌜Inv1 m c n d⌝ ∗ owns (c : Thread nD τ) scM1 fullShare d)) := by
  cases n with
  | zero => exact absurd rfl hz
  | succ n => rfl

/-- The proof data of the one pipeline on core `c`: the arrays as the region finds them; after the body each input's
    buffer at its block and the result's at `out9`; the invariant `PhiS`; nothing owed; the adjacency's full share dealt
    in halves to the two windows that read it, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from rfl, after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from rfl, after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from rfl, after_2]
theorem leaves_3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from rfl, after_3]
theorem leaves_4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from rfl, after_4]
theorem leaves_5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from rfl, after_5]
theorem leaves_6 (c : Dev nD) (t : Fin cfg0.N) :
    (dats m 0 c).leavesExact 6 t = owns (c : Thread nD τ) (ms6 t) fullShare (iblk m c 6 t) := by
  rw [show (dats m 0 c).leavesExact 6 t = owns (c : Thread nD τ) (ms6 t) fullShare ((dats m 0 c).after 6 t) from rfl, after_6]
theorem leaves_7 (c : Dev nD) (t : Fin cfg0.N) :
    (dats m 0 c).leavesExact 7 t = owns (c : Thread nD τ) (ms7 t) fullShare (iblk m c 7 t) := by
  rw [show (dats m 0 c).leavesExact 7 t = owns (c : Thread nD τ) (ms7 t) fullShare ((dats m 0 c).after 7 t) from rfl, after_7]
theorem leaves_8 (c : Dev nD) (t : Fin cfg0.N) :
    (dats m 0 c).leavesExact 8 t = owns (c : Thread nD τ) (ms8 t) fullShare (iblk m c 8 t) := by
  rw [show (dats m 0 c).leavesExact 8 t = owns (c : Thread nD τ) (ms8 t) fullShare ((dats m 0 c).after 8 t) from rfl, after_8]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point: its position says which phase it is in; the inputs' buffers hold their blocks; the run of that
    phase applies; the invariant hands over the scratch buffers at what the points before left and takes them back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8]
  have hN := N51 t
  by_cases hz : t.val = 0
  · rw [Dat.leavesExact_idle (dats m 0 c) 9 t (idle9_early t (by omega)) (noFlush9_early t (by omega))]
    rw [PhiS_castSucc m c t, PhiS_zero m c _ _ hz, scoped_eq]
    obtain rfl : t = t0 := Fin.ext hz
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) scM0 (Memref.isWhole_whole _) scM1 (Memref.isWhole_whole _) (hA1 t0 rfl) (hA2 t0 rfl) (hA3 t0 rfl)
      (iblk m c 0 t0) (iblk m c 3 t0) (iblk m c 4 t0) (iblk m c 5 t0) (iblk m c 6 t0)).2 Set.univ _)
    isplitl [H0]; · iexact H0
    isplitl [H3]; · iexact H3
    isplitl [H4]; · iexact H4
    isplitl [H5]; · iexact H5
    isplitl [H6]; · iexact H6
    isplitl [HS0]; · iexact HS0
    iintro ⟨H0, H3, H4, H5, H6, ⟨%es0, HS0⟩⟩
    isplitl [HS0 HS1]
    · isplitl [HS0]
      · unfold owns; iexists _; isplitr
        swap; · iexact HS0
        ipureintro; exact read_LS0 m c _
      · icases HS1 with ⟨%d, HS1⟩
        iexists d; isplitr; · ipureintro; exact inv1_one m c d
        iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases hl : t.val ≤ 25
    · rw [Dat.leavesExact_idle (dats m 0 c) 9 t (idle9_early t hl) (noFlush9_early t hl)]
      rw [PhiS_castSucc m c t, PhiS_pos m c _ _ hz]
      iintro ⟨⟨HS0, ⟨%d, %hd, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t hz) (hB2 t hz hl) (hB3 t hl)
        (iblk m c 1 t) (iblk m c 2 t) (iblk m c 7 t) (iblk m c 8 t) (S0 m c) d).2 Set.univ _)
      isplitl [H1]; · iexact H1
      isplitl [H2]; · iexact H2
      isplitl [H7]; · iexact H7
      isplitl [H8]; · iexact H8
      isplitl [HS0]; · iexact HS0
      isplitl [HS1]; · iexact HS1
      iintro ⟨H1, H2, H7, H8, HS0, HS1⟩
      isplitl [HS0 HS1]
      · isplitl [HS0]; · iexact HS0
        iexists _; isplitr; · ipureintro; exact inv1_step m c t hz hl d hd
        unfold owns; iexists _; isplitr; · ipureintro; rfl
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hl' : 25 < t.val := by omega
      rw [show (dats m 0 c).leavesExact 9 t = owns (c : Thread nD τ) (ms9 t) fullShare ((dats m 0 c).after 9 t) from by
        unfold Dat.leavesExact; rw [live9_late t hl'], after_9]
      rw [PhiS_castSucc m c t, PhiS_pos m c _ _ hz]
      iintro ⟨⟨HS0, ⟨%d, %hd, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := inv1_full m c t.val hl' d hd
      iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t hz) (hC2 t hl') (hC3 t hl')
        (iblk m c 1 t) (iblk m c 2 t) (H2full m c)).2 Set.univ _)
      isplitl [H1]; · iexact H1
      isplitl [H2]; · iexact H2
      isplitl [HS1]; · iexact HS1
      isplitl [H9]; · iexists _; iexact H9
      iintro ⟨H1, H2, HS1, ⟨%e9, H9⟩⟩
      isplitl [HS0 HS1]
      · isplitl [HS0]; · iexact HS0
        iexists _; isplitr; · ipureintro; exact inv1_late m c t.val hl' _ hd
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact read_L9 m c t hl' _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives the scratch buffers back at some contents. -/
theorem hout (c : Dev nD) : (dats m 0 c).Φ (Fin.last cfg0.N)
    ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 51 := N_0; omega), scoped_eq]
  iintro ⟨HS0, ⟨%d, -, HS1⟩⟩
  isplitl [HS0]
  · iexists _; iexact HS0
  · iexists _; iexact HS1

end Cert.Kernel.Frm

end
-- ==== Proof.K.Launch.lean ====
/-
  The launch of `Kernel`'s kernel and its frame. The adjacency array is read by two windows, so its full share is dealt
  to them in halves when the region is entered; every other array goes to its one window whole. From the body obligation
  the region runs over its 51 grid points and ends with every windowed array at what the proof data computes — an input
  as it was, the result overwritten block by block by what the third phase left — and every other buffer as the region
  found it. Hence the frame: @main terminates, faults nowhere, and leaves its eight argument arrays as launched.
-/
import proofs.«109255_g1735166787695_cont_8to1_331_10_alg».proof.Proof.K.Body
import Idealize.ShloMosaic.Lib.Pipeline.Frame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_0 (c : Dev nD) : (dats m 0 c).share 0 = fullShare := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_neg (by decide)]; dsimp only [dats]
theorem share_7 (c : Dev nD) : (dats m 0 c).share 7 = fullShare := by
  unfold Dat.share; rw [if_neg (by decide)]; dsimp only [dats]
theorem share_8 (c : Dev nD) : (dats m 0 c).share 8 = fullShare := by
  unfold Dat.share; rw [if_neg (by decide)]; dsimp only [dats]
theorem share_1 (c : Dev nD) : (dats m 0 c).share 1 = fullShare.left := by
  unfold Dat.share; rw [if_neg (by decide)]; dsimp only [dats]
theorem share_2 (c : Dev nD) : (dats m 0 c).share 2 = fullShare.right := by
  unfold Dat.share; rw [if_neg (by decide)]; dsimp only [dats]
theorem share_9 (c : Dev nD) : (dats m 0 c).share 9 = fullShare := by
  unfold Dat.share; rw [if_pos (by decide)]

/-- A window's array at the region's entry, as the points-to of its buffer. -/
theorem arr_pt (c : Dev nD) (w : Fin cfg0.W) (q : PosShare TreeShare) :
    ((cfg0.win w).arr.view.loc (c.tc : Thread nD τ) ↦[(cfg0.win w).arr.view.set]{q} (dats m 0 c).arrAt w 0 : sProp 𝕄)
      = (((c.tc : Thread nD τ).loc (Pipeline.arrRef spec0 w)) ↦{q} V m c (Pipeline.arrRef spec0 w)) := by
  rw [(arr_whole0 w).set_eq_univ]; rfl

/-- The distinct buffers behind the ten windows' arrays: nine, the adjacency being two windows'. -/
theorem arrImage : (Finset.univ.image (Pipeline.arrRef spec0) : Finset (Ref sig .tc))
    = [main_arg0, main_arg1, main_arg2, main_v0, main_arg4, main_v1, main_arg6, main_v2, main_v3].toFinset := by decide +kernel
theorem arrNodup : ([main_arg0, main_arg1, main_arg2, main_v0, main_arg4, main_v1, main_arg6, main_v2, main_v3] : List (Ref sig .tc)).Nodup := by decide

/-- Those nine buffers, each whole at the full share, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_arg4) ↦{fullShare} W main_arg4) ∗ (((c : Thread nD τ).loc main_v1) ↦{fullShare} W main_v1) ∗ (((c : Thread nD τ).loc main_arg6) ↦{fullShare} W main_arg6) ∗ (((c : Thread nD τ).loc main_v2) ↦{fullShare} W main_v2) ∗ (((c : Thread nD τ).loc main_v3) ↦{fullShare} W main_v3)) := by
  unfold Pipeline.arrBufs
  exact Idealize.SL.BI.bigSep_eq_bigSepL_of_eq [main_arg0, main_arg1, main_arg2, main_v0, main_arg4, main_v1, main_arg6, main_v2, main_v3] arrImage arrNodup _

/-- The buffers behind the windows' arrays, each whole at the full share, are the proof data's arrays at entry: the
    adjacency split between its two windows. -/
theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  rw [share_0 m c, share_1 m c, share_2 m c, share_3 m c, share_4 m c, share_5 m c, share_6 m c, share_7 m c, share_8 m c, share_9 m c]
  iintro ⟨H0, H1, H2, H3, H4, H5, H6, H7, H8⟩
  ihave H1' := (pointsTo_share (PosShare.mem_left_op_right fullShare)).1 $$ H1
  icases H1' with ⟨H1l, H1r⟩
  isplitl [H0]; · iapply (Entails.of_eq (arr_pt m c 0 fullShare).symm); iexact H0
  isplitl [H1l]; · iapply (Entails.of_eq (arr_pt m c 1 fullShare.left).symm); iexact H1l
  isplitl [H1r]; · iapply (Entails.of_eq (arr_pt m c 2 fullShare.right).symm); iexact H1r
  isplitl [H2]; · iapply (Entails.of_eq (arr_pt m c 3 fullShare).symm); iexact H2
  isplitl [H3]; · iapply (Entails.of_eq (arr_pt m c 4 fullShare).symm); iexact H3
  isplitl [H4]; · iapply (Entails.of_eq (arr_pt m c 5 fullShare).symm); iexact H4
  isplitl [H5]; · iapply (Entails.of_eq (arr_pt m c 6 fullShare).symm); iexact H5
  isplitl [H6]; · iapply (Entails.of_eq (arr_pt m c 7 fullShare).symm); iexact H6
  isplitl [H7]; · iapply (Entails.of_eq (arr_pt m c 8 fullShare).symm); iexact H7
  iapply (Entails.of_eq (arr_pt m c 9 fullShare).symm); iexact H8

/-! ## The run -/

set_option backward.isDefEq.respectTransparency.types false in
/-- At the compiled mesh, from any memory with zero counters: every weakly fair execution of @main terminates, and every
    final state has every windowed array at what the library computes from the proof data and every other unscoped
    buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := Idealize.SL.BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      exact (show _ ⊢ (Pipeline.scopedRest (Ix := Unit) (Name := ℕ) (U := UR sig nD τ) (Lvl := ℕ) (Val := Elt F) spec0 c : sProp 𝕄) from by
        iintro ⟨-, HR⟩; iexact HR).trans (hin m c))
    (hout := fun c => by
      refine (hout m c).trans ?_
      iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Frm.run_main' depends on axioms: [propext, Classical.choice, Quot.sound] -/
#guard_msgs in #print axioms run_main

/-! ## The frame -/

/-- @main runs and leaves its eight argument arrays as launched: the five that windows stage are inputs, which the region
    only reads; the three bias rows bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩)
    (run_main m ρ)

end Cert.Kernel.Frm

end
-- ==== Proof.KI.Base.lean ====
/-
  The region of `KernelIdeal`'s one kernel launch as the proofs below see it: what every buffer holds when the region is
  entered (the three bias rows reshaped to 1 × n by the host lines before it, everything else as launched), each
  window's block at a grid point, and the schedule of the 51 grid points. Point 0 computes the first two layers into
  the first scratch; points 1 … 25 each fill 400 rows of the second scratch; points 26 … 50 each write 400 rows of
  the result. The adjacency is handed to the kernel through two windows, of the even and of the odd 200-row blocks.
-/
import proofs.«109255_g1735166787695_cont_8to1_331_10_alg».proof.Proof.Gen.KernelIdeal.Launch
import proofs.«109255_g1735166787695_cont_8to1_331_10_alg».proof.Proof.Gen.KernelIdeal.Skeleton
import proofs.«109255_g1735166787695_cont_8to1_331_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three reshapes of the bias rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the three reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not (unfetched, the block index
    has not moved), for any proof data whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The three phases -/

/-- The first branch's condition: the grid coordinate is 0. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The second branch's: the coordinate is between 1 and 25. -/
abbrev cond2 (i : grid0.Coords) : Prop := k0_cond2 i = 1#1
theorem hcond2 : ∀ t : Fin cfg0.N, cond2 (grid0.coords t) ↔ (1 ≤ t.val ∧ t.val ≤ 25) :=
  (by decide +kernel : ∀ t : Fin grid0.N, cond2 (grid0.coords t) ↔ (1 ≤ t.val ∧ t.val ≤ 25))
/-- The third branch's: the coordinate is above 25. -/
abbrev cond3 (i : grid0.Coords) : Prop := k0_cond3 i = 1#1
theorem hcond3 : ∀ t : Fin cfg0.N, cond3 (grid0.coords t) ↔ 25 < t.val :=
  (by decide +kernel : ∀ t : Fin grid0.N, cond3 (grid0.coords t) ↔ 25 < t.val)

/-- Where the second phase stores: rows 400 (t − 1) + 200 k onwards, all 16 columns. -/
theorem off1_eq : ∀ t : Fin cfg0.N, 1 ≤ t.val → t.val ≤ 25 → ∀ k : Fin 2,
    k0_off1 (grid0.coords t) (BitVec.ofNat 32 (200 * k.val)) 0 = 400 * (t.val - 1) + 200 * k.val
    ∧ k0_off1 (grid0.coords t) (BitVec.ofNat 32 (200 * k.val)) 1 = 0 :=
  (by decide +kernel : ∀ t : Fin grid0.N, 1 ≤ t.val → t.val ≤ 25 → ∀ k : Fin 2,
    k0_off1 (grid0.coords t) (BitVec.ofNat 32 (200 * k.val)) 0 = 400 * (t.val - 1) + 200 * k.val
    ∧ k0_off1 (grid0.coords t) (BitVec.ofNat 32 (200 * k.val)) 1 = 0)

/-! The result window is stored only in the third phase: before it the window is idle and nothing is written back. -/
theorem idle9_early : ∀ t : Fin cfg0.N, t.val ≤ 25 → cfg0.idle 9 (grid0.coords t) = true := by decide +kernel
theorem noFlush9_early : ∀ t : Fin cfg0.N, t.val ≤ 25 → (cfg0.win 9).flush t = false := by decide +kernel
theorem live9_late : ∀ t : Fin cfg0.N, 25 < t.val → cfg0.idle 9 (grid0.coords t) = false := by decide +kernel
/-- In the third phase every point writes its block back: block t − 26 of the result. -/
theorem flush9_late : ∀ t : Fin cfg0.N, 25 < t.val → (cfg0.win 9).flush t = true := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x16 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x16 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x16 .f32 := win0_9.stage (cfg0.slots t 9)
abbrev hs9 (t : Fin cfg0.N) : (ms9 t).IsWhole := hstage0_9 ((cfg0.slots t 9).cast nbuf0_9)
/-- The two scratch buffers: 10000 × 32 for the first graph layer's linear part, 10000 × 16 for the second's. -/
abbrev scM0 : Memref sig .tc .vmem S10000x32 .f32 := Memref.whole cc0_scratch0
abbrev scM1 : Memref sig .tc .vmem S10000x16 .f32 := Memref.whole cc0_scratch1

/-- What the launch hands the region besides the windows: the two scratch buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Frm

end
-- ==== Proof.KI.RunA.lean ====
/-
  The first phase of the kernel body (grid point 0): it loads the features, the first two weight matrices and their bias rows, and stores the first graph layer's linear part over the whole first scratch buffer. Nothing else is touched.
-/
import proofs.«109255_g1735166787695_cont_8to1_331_10_alg».proof.Proof.KI.Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run in this phase on any whole memrefs: the buffers it loads held at their contents and handed back as they
    were, the buffer it stores into handed back with its stores written over what it held (the list of stores is what
    the run finds). -/
noncomputable def kernelRun_A (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : cond1 i) (hc2 : ¬cond2 i) (hc3 : ¬cond3 i)
    (x1 : Vec F S10000x128 .f32) (x4 : Vec F S128x64 .f32) (x5 : Vec F S1x64 .f32) (x6 : Vec F S64x32 .f32) (x7 : Vec F S1x32 .f32) :
    { LS0 : List (View.Piece (Elt F) S10000x32 .f32) //
      ∀ (E : Set ℕ) (K : PUnit → sProp 𝕄),
        iprop(owns (c : Thread nD τ) arg1 fullShare x1 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d)
            ∗ (iprop(owns (c : Thread nD τ) arg1 fullShare x1 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg11.view.loc (c : Thread nD τ) ↦[arg11.view.set]{fullShare} arg11.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f1, %hf1, H1⟩, ⟨%f4, %hf4, H4⟩, ⟨%f5, %hf5, H5⟩, ⟨%f6, %hf6, H6⟩, ⟨%f7, %hf7, H7⟩, ⟨%d11, %f11, -, H11⟩, Hk⟩
    obtain rfl := harg1.eq_unread hf1; obtain rfl := harg4.eq_unread hf4; obtain rfl := harg5.eq_unread hf5; obtain rfl := harg6.eq_unread hf6; obtain rfl := harg7.eq_unread hf7
    sl_exec (disch := first | exact hc1 | exact hc2 | exact hc3)
    sl_step
    iapply Hk
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H11

end Cert.KernelIdeal.Frm

end
-- ==== Proof.KI.RunB.lean ====
/-
  The second phase of the kernel body (grid points 1 to 25): it loads the two 200-row blocks of the adjacency, the first scratch buffer, the last weight matrix and its bias row, and stores two 200-row pieces into the second scratch buffer, one after the other, at the rows the grid point names; the rest of that buffer keeps what it held.
-/
import proofs.«109255_g1735166787695_cont_8to1_331_10_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run in this phase on any whole memrefs: the buffers it loads held at their contents and handed back as they
    were, the buffer it stores into handed back with its stores written over what it held (the list of stores is what
    the run finds). -/
noncomputable def kernelRun_B (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : cond2 i) (hc3 : ¬cond3 i)
    (x2 : Vec F S200x10000 .f32) (x3 : Vec F S200x10000 .f32) (x8 : Vec F S32x16 .f32) (x9 : Vec F S1x16 .f32) (xs0 : Vec F S10000x32 .f32) (xs1 : Vec F S10000x16 .f32) :
    { LS1 : List (View.Piece (Elt F) S10000x16 .f32) //
      ∀ (E : Set ℕ) (K : PUnit → sProp 𝕄),
        iprop(owns (c : Thread nD τ) arg2 fullShare x2 ∗ owns (c : Thread nD τ) arg3 fullShare x3 ∗ owns (c : Thread nD τ) arg8 fullShare x8 ∗ owns (c : Thread nD τ) arg9 fullShare x9 ∗ owns (c : Thread nD τ) arg11 fullShare xs0 ∗ owns (c : Thread nD τ) arg12 fullShare xs1
            ∗ (iprop(owns (c : Thread nD τ) arg2 fullShare x2 ∗ owns (c : Thread nD τ) arg3 fullShare x3 ∗ owns (c : Thread nD τ) arg8 fullShare x8 ∗ owns (c : Thread nD τ) arg9 fullShare x9 ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f2, %hf2, H2⟩, ⟨%f3, %hf3, H3⟩, ⟨%f8, %hf8, H8⟩, ⟨%f9, %hf9, H9⟩, ⟨%f11, %hf11, H11⟩, ⟨%f12, %hf12, H12⟩, Hk⟩
    obtain rfl := harg2.eq_unread hf2; obtain rfl := harg3.eq_unread hf3; obtain rfl := harg8.eq_unread hf8; obtain rfl := harg9.eq_unread hf9; obtain rfl := harg11.eq_unread hf11; obtain rfl := harg12.eq_unread hf12
    sl_exec (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    iexact H12

end Cert.KernelIdeal.Frm

end
-- ==== Proof.KI.RunC.lean ====
/-
  The third phase of the kernel body (grid points 26 to 50): it loads the two 200-row blocks of the adjacency and the second scratch buffer, and stores the two halves of a 400-row block of the result into the result window's staging buffer.
-/
import proofs.«109255_g1735166787695_cont_8to1_331_10_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run in this phase on any whole memrefs: the buffers it loads held at their contents and handed back as they
    were, the buffer it stores into handed back with its stores written over what it held (the list of stores is what
    the run finds). -/
noncomputable def kernelRun_C (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : ¬cond2 i) (hc3 : cond3 i)
    (x2 : Vec F S200x10000 .f32) (x3 : Vec F S200x10000 .f32) (xs1 : Vec F S10000x16 .f32) :
    { L9 : List (View.Piece (Elt F) S400x16 .f32) //
      ∀ (E : Set ℕ) (K : PUnit → sProp 𝕄),
        iprop(owns (c : Thread nD τ) arg2 fullShare x2 ∗ owns (c : Thread nD τ) arg3 fullShare x3 ∗ owns (c : Thread nD τ) arg12 fullShare xs1 ∗ (∃ d, owns (c : Thread nD τ) arg10 fullShare d)
            ∗ (iprop(owns (c : Thread nD τ) arg2 fullShare x2 ∗ owns (c : Thread nD τ) arg3 fullShare x3 ∗ owns (c : Thread nD τ) arg12 fullShare xs1 ∗ (∃ f, arg10.view.loc (c : Thread nD τ) ↦[arg10.view.set]{fullShare} arg10.view.writes (Elt F) f L9)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f2, %hf2, H2⟩, ⟨%f3, %hf3, H3⟩, ⟨%f12, %hf12, H12⟩, ⟨%d10, %f10, -, H10⟩, Hk⟩
    obtain rfl := harg2.eq_unread hf2; obtain rfl := harg3.eq_unread hf3; obtain rfl := harg12.eq_unread hf12
    sl_exec (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H12]
    · iexists _; isplitr; · ipureintro; exact harg12.read_unread _
      iexact H12
    iexists _; iexact H10

end Cert.KernelIdeal.Frm

end
-- ==== Proof.KI.Data.lean ====
/-
  What the buffers of `KernelIdeal`'s kernel hold from grid point to grid point, named through the values the body stores.

  After point 0 the first scratch holds `S0`: the first graph layer's linear part of all 10000 rows, computed from the
  blocks of the features, the first two weight matrices and their bias rows. A point t of the second phase (1 ≤ t ≤ 25)
  stores two 200-row halves into the second scratch, at rows 400 (t − 1) and 400 (t − 1) + 200: `h2half t 0` from the
  even adjacency block of the point and `h2half t 1` from the odd one. So before point n the second scratch agrees
  with those halves on the rows of every earlier second-phase point (`Inv1 n`), and from point 26 on it is the one
  array `H2full`. A point t of the third phase leaves in the result window's buffer `out9 t`: rows 0 … 199 from the
  even adjacency block against `H2full`, rows 200 … 399 from the odd one.
-/
import proofs.«109255_g1735166787695_cont_8to1_331_10_alg».proof.Proof.KI.RunC
import Idealize.ShloMosaic.Lib.WritesUnit
import Idealize.ShloMosaic.Lib.WholeRead
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Loads of whole buffers, and the three store lists -/

theorem zero2 : (![0, 0] : Fin 2 → ℕ) = fun _ => 0 := by funext a; fin_cases a <;> rfl

/-- A load of a whole buffer through its own memref, the memref held at the contents that read `X`, is `X`. -/
theorem readAt_whole_unread {κ : Kind} {sp : Space} {S : Shape} {e : EltTy} {M : Memref sig κ sp S e} (h : M.IsWhole)
    {off : Fin S.rank → ℕ} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

/-- The first phase's one store: the whole first scratch, at the first graph layer's linear part. -/
theorem LS0_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : cond1 i) (hc2 : ¬cond2 i) (hc3 : ¬cond3 i)
    (x1 : Vec F S10000x128 .f32) (x4 : Vec F S128x64 .f32) (x5 : Vec F S1x64 .f32) (x6 : Vec F S64x32 .f32) (x7 : Vec F S1x32 .f32) :
    (kernelRun_A c i arg1 harg1 arg2 harg2 arg3 harg3 arg4 harg4 arg5 harg5 arg6 harg6 arg7 harg7 arg8 harg8 arg9 harg9 arg10 harg10 arg11 harg11 arg12 harg12 hc1 hc2 hc3 x1 x4 x5 x6 x7).1
      = [⟨Rect.unit ![0, 0] S10000x32.size inb_S10000x32_S10000x32_0_0, k0_pay1 x1 x4 x5 x6 x7⟩] := by
  unfold kernelRun_A; dsimp only
  rw [readAt_whole_unread harg1 zero2, readAt_whole_unread harg4 zero2, readAt_whole_unread harg5 zero2,
    readAt_whole_unread harg6 zero2, readAt_whole_unread harg7 zero2]

/-- The second phase's two stores, the later one first. -/
theorem LS1_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : cond2 i) (hc3 : ¬cond3 i)
    (x2 x3 : Vec F S200x10000 .f32) (x8 : Vec F S32x16 .f32) (x9 : Vec F S1x16 .f32) (xs0 : Vec F S10000x32 .f32) (xs1 : Vec F S10000x16 .f32) :
    (kernelRun_B c i arg1 harg1 arg2 harg2 arg3 harg3 arg4 harg4 arg5 harg5 arg6 harg6 arg7 harg7 arg8 harg8 arg9 harg9 arg10 harg10 arg11 harg11 arg12 harg12 hc1 hc2 hc3 x2 x3 x8 x9 xs0 xs1).1
      = [⟨Rect.unit (k0_off1 i 200#32) S200x16.size (k0_off1_inb i hc2 1), k0_pay2 (k0_pay6 x3 xs0 x8 x9)⟩,
         ⟨Rect.unit (k0_off1 i 0#32) S200x16.size (k0_off1_inb i hc2 0), k0_pay5 x2 xs0 x8 x9⟩] := by
  unfold kernelRun_B; dsimp only; unfold kernelRun_B.sl.r
  rw [readAt_whole_unread harg2 zero2, readAt_whole_unread harg3 zero2, readAt_whole_unread harg8 zero2,
    readAt_whole_unread harg9 zero2, readAt_whole_unread harg11 zero2]

/-- The third phase's two stores, the later one first. -/
theorem L9_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x16 .f32) (harg8 : arg8.IsWhole) (arg9 : Memref sig .tc .vmem S1x16 .f32) (harg9 : arg9.IsWhole) (arg10 : Memref sig .tc .vmem S400x16 .f32) (harg10 : arg10.IsWhole) (arg11 : Memref sig .tc .vmem S10000x32 .f32) (harg11 : arg11.IsWhole) (arg12 : Memref sig .tc .vmem S10000x16 .f32) (harg12 : arg12.IsWhole) (hc1 : ¬cond1 i) (hc2 : ¬cond2 i) (hc3 : cond3 i)
    (x2 x3 : Vec F S200x10000 .f32) (xs1 : Vec F S10000x16 .f32) :
    (kernelRun_C c i arg1 harg1 arg2 harg2 arg3 harg3 arg4 harg4 arg5 harg5 arg6 harg6 arg7 harg7 arg8 harg8 arg9 harg9 arg10 harg10 arg11 harg11 arg12 harg12 hc1 hc2 hc3 x2 x3 xs1).1
      = [⟨Rect.unit ![200, 0] S200x16.size inb_S400x16_S200x16_200_0, k0_pay4 x3 xs1⟩,
         ⟨Rect.unit ![0, 0] S200x16.size inb_S400x16_S200x16_0_0, k0_pay3 x2 xs1⟩] := by
  unfold kernelRun_C; dsimp only
  rw [readAt_whole_unread harg2 zero2, readAt_whole_unread harg3 zero2, readAt_whole_unread harg12 zero2]

/-! ## The phases at a point, from its position -/

theorem N51 (t : Fin cfg0.N) : t.val < 51 := lt_of_lt_of_eq t.isLt (show cfg0.N = 51 from N_0)

theorem hA1 (t : Fin cfg0.N) (h : t.val = 0) : cond1 (grid0.coords t) := (hcond1 t).mpr h
theorem hA2 (t : Fin cfg0.N) (h : t.val = 0) : ¬cond2 (grid0.coords t) := fun hc => by have := (hcond2 t).mp hc; omega
theorem hA3 (t : Fin cfg0.N) (h : t.val = 0) : ¬cond3 (grid0.coords t) := fun hc => by have := (hcond3 t).mp hc; omega
theorem hB1 (t : Fin cfg0.N) (h : t.val ≠ 0) : ¬cond1 (grid0.coords t) := fun hc => h ((hcond1 t).mp hc)
theorem hB2 (t : Fin cfg0.N) (h : t.val ≠ 0) (hl : t.val ≤ 25) : cond2 (grid0.coords t) := (hcond2 t).mpr ⟨by omega, hl⟩
theorem hB3 (t : Fin cfg0.N) (hl : t.val ≤ 25) : ¬cond3 (grid0.coords t) := fun hc => by have := (hcond3 t).mp hc; omega
theorem hC2 (t : Fin cfg0.N) (hl : 25 < t.val) : ¬cond2 (grid0.coords t) := fun hc => by have := (hcond2 t).mp hc; omega
theorem hC3 (t : Fin cfg0.N) (hl : 25 < t.val) : cond3 (grid0.coords t) := (hcond3 t).mpr hl

/-! ## What the scratch buffers and the result window hold -/

/-- The first grid point. -/
def t0 : Fin cfg0.N := ⟨0, by rw [show cfg0.N = 51 from N_0]; decide⟩

/-- The first scratch after point 0: the first graph layer's linear part of every row. -/
def S0 (c : Dev nD) : Vec F S10000x32 .f32 :=
  k0_pay1 (iblk m c 0 t0) (iblk m c 3 t0) (iblk m c 4 t0) (iblk m c 5 t0) (iblk m c 6 t0)

/-- The two 200-row halves a point of the second phase stores into the second scratch. -/
def h2half (c : Dev nD) (t : Fin cfg0.N) (k : Fin 2) : FVec F S200x16 .f32 :=
  match k with
  | ⟨0, _⟩ => k0_pay5 (iblk m c 1 t) (S0 m c) (iblk m c 7 t) (iblk m c 8 t)
  | ⟨1, _⟩ => k0_pay2 (k0_pay6 (iblk m c 2 t) (S0 m c) (iblk m c 7 t) (iblk m c 8 t))

/-- Before point `n` the second scratch holds, on the rows of every earlier point of the second phase, that point's halves. -/
def Inv1 (c : Dev nD) (n : ℕ) (d : Vec F S10000x16 .f32) : Prop :=
  ∀ t : Fin cfg0.N, 1 ≤ t.val → t.val < n → t.val ≤ 25 → ∀ (k : Fin 2) (y : S200x16.Idx) (i : S10000x16.Idx),
    (i 0).val = 400 * (t.val - 1) + 200 * k.val + (y 0).val → (i 1).val = (y 1).val → d i = h2half m c t k y

/-- The second scratch once the second phase is over: row r is row r mod 200 of the half that holds it. -/
def H2full (c : Dev nD) : Vec F S10000x16 .f32 := fun i =>
  h2half m c ⟨(i 0).val / 400 + 1, by have := idx2_lt0 i; rw [show cfg0.N = 51 from N_0]; omega⟩
    ⟨(i 0).val % 400 / 200, by omega⟩ (ix2 ⟨(i 0).val % 200, by omega⟩ (i 1))

theorem inv1_one (c : Dev nD) (d : Vec F S10000x16 .f32) : Inv1 m c 1 d := fun t h1 h2 => by omega

/-- Once every point of the second phase has run, the second scratch is `H2full`. -/
theorem inv1_full (c : Dev nD) (n : ℕ) (hn : 25 < n) (d : Vec F S10000x16 .f32) (h : Inv1 m c n d) : d = H2full m c := by
  funext i
  have hi := idx2_lt0 i
  exact h ⟨(i 0).val / 400 + 1, by rw [show cfg0.N = 51 from N_0]; omega⟩ (by show 1 ≤ (i 0).val / 400 + 1; omega)
    (by show (i 0).val / 400 + 1 < n; omega) (by show (i 0).val / 400 + 1 ≤ 25; omega)
    ⟨(i 0).val % 400 / 200, by omega⟩ (ix2 ⟨(i 0).val % 200, by omega⟩ (i 1)) i
    (by show (i 0).val = 400 * ((i 0).val / 400 + 1 - 1) + 200 * ((i 0).val % 400 / 200) + (i 0).val % 200; omega) rfl

/-- The third phase stores nothing into the second scratch: the invariant carries over. -/
theorem inv1_late (c : Dev nD) (n : ℕ) (hn : 25 < n) (d : Vec F S10000x16 .f32) (h : Inv1 m c n d) : Inv1 m c (n + 1) d :=
  fun t h1 _ h3 => h t h1 (by omega) h3

/-- What a point of the third phase leaves in the result window's buffer. -/
def out9 (c : Dev nD) (t : Fin cfg0.N) : Vec F S400x16 .f32 := fun y =>
  if h : (y 0).val < 200 then k0_pay3 (iblk m c 1 t) (H2full m c) (ix2 ⟨(y 0).val, h⟩ (y 1))
  else k0_pay4 (iblk m c 2 t) (H2full m c) (ix2 ⟨(y 0).val - 200, by have := idx2_lt0 y; omega⟩ (y 1))

end Cert.KernelIdeal.Frm

end
-- ==== Proof.KI.Body.lean ====
/-
  The proof data of `KernelIdeal`'s kernel launch and its body obligation: at every grid point, from the invariant on
  the two scratch buffers and every window's staging buffer at what it then holds, the body runs to the invariant of the
  next point and every staging buffer at what the proof data says it leaves.
-/
import proofs.«109255_g1735166787695_cont_8to1_331_10_alg».proof.Proof.KI.Data

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Reading the buffers after each phase's stores -/

/-- After the first phase's store the first scratch reads `S0`, whatever it held. -/
theorem read_LS0 (c : Dev nD) (f : scM0.view.ty.Contents (Elt F)) :
    scM0.view.read (Elt F) (scM0.view.writes (Elt F) f
      (kernelRun_A c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) scM0 (Memref.isWhole_whole _) scM1 (Memref.isWhole_whole _) (hA1 t0 rfl) (hA2 t0 rfl) (hA3 t0 rfl)
        (iblk m c 0 t0) (iblk m c 3 t0) (iblk m c 4 t0) (iblk m c 5 t0) (iblk m c 6 t0)).1) = S0 m c := by
  rw [LS0_eq]; funext y
  exact View.read_writes_cons_rows_of_mem _ _ _ _ _ y y rfl (Nat.zero_add _).symm rfl

/-- After a third-phase point's two stores the result window's buffer reads `out9`, whatever it held. -/
theorem read_L9 (c : Dev nD) (t : Fin cfg0.N) (hl : 25 < t.val) (f : (ms9 t).view.ty.Contents (Elt F)) :
    (ms9 t).view.read (Elt F) ((ms9 t).view.writes (Elt F) f
      (kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t (by omega)) (hC2 t hl) (hC3 t hl)
        (iblk m c 1 t) (iblk m c 2 t) (H2full m c)).1) = out9 m c t := by
  rw [L9_eq]; funext y; unfold out9
  by_cases h : (y 0).val < 200
  · rw [dif_pos h, View.read_writes_cons_rows_of_not_mem _ _ _ _ _ y rfl (rfl : S200x16.size 0 = 200) (Or.inl h)]
    exact View.read_writes_cons_rows_of_mem _ _ _ _ _ y (ix2 ⟨(y 0).val, h⟩ (y 1)) rfl (Nat.zero_add _).symm rfl
  · rw [dif_neg h]
    exact View.read_writes_cons_rows_of_mem _ _ _ _ _ y (ix2 ⟨(y 0).val - 200, by have := idx2_lt0 y; omega⟩ (y 1)) rfl
      (by show (y 0).val = 200 + ((y 0).val - 200); omega) rfl

/-- A second-phase point's two stores extend the invariant on the second scratch by the point's own rows. -/
theorem inv1_step (c : Dev nD) (t : Fin cfg0.N) (hz : t.val ≠ 0) (hl : t.val ≤ 25) (d : Vec F S10000x16 .f32) (hd : Inv1 m c t.val d) :
    Inv1 m c (t.val + 1) (scM1.view.read (Elt F) (scM1.view.writes (Elt F) ((Memref.isWhole_whole _ : scM1.IsWhole).unread d)
      (kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t hz) (hB2 t hz hl) (hB3 t hl)
        (iblk m c 1 t) (iblk m c 2 t) (iblk m c 7 t) (iblk m c 8 t) (S0 m c) d).1)) := by
  rw [LS1_eq]
  intro t' h1 h2 h3 k y i hi0 hi1
  obtain ⟨o0, o0'⟩ := off1_eq t (by omega) hl 0
  obtain ⟨o1, o1'⟩ := off1_eq t (by omega) hl 1
  have e0 : k0_off1 (grid0.coords t) 0#32 = ![400 * (t.val - 1), 0] := by
    funext a; fin_cases a
    · exact o0
    · exact o0'
  have e1 : k0_off1 (grid0.coords t) 200#32 = ![400 * (t.val - 1) + 200, 0] := by
    funext a; fin_cases a
    · exact o1
    · exact o1'
  have hk := k.isLt
  have hy := idx2_lt0 y
  by_cases ht : t'.val < t.val
  · rw [View.read_writes_cons_rows_of_not_mem _ _ _ _ _ i e1 (rfl : S200x16.size 0 = 200) (by omega),
      View.read_writes_cons_rows_of_not_mem _ _ _ _ _ i e0 (rfl : S200x16.size 0 = 200) (by omega),
      View.writes_nil, (Memref.isWhole_whole _ : scM1.IsWhole).read_unread]
    exact hd t' h1 ht h3 k y i hi0 hi1
  · obtain rfl : t' = t := Fin.ext (by omega)
    match k, hi0 with
    | ⟨0, _⟩, hi0 =>
      have hi0' : (i 0).val = 400 * (t'.val - 1) + (y 0).val := by simpa using hi0
      have hy := idx2_lt0 y
      rw [View.read_writes_cons_rows_of_not_mem _ _ _ _ _ i e1 (rfl : S200x16.size 0 = 200) (by omega)]
      exact View.read_writes_cons_rows_of_mem _ _ _ _ _ i y e0 hi0' hi1
    | ⟨1, _⟩, hi0 =>
      have hi0' : (i 0).val = 400 * (t'.val - 1) + 200 + (y 0).val := by simpa using hi0
      exact View.read_writes_cons_rows_of_mem _ _ _ _ _ i y e1 hi0' hi1

/-! ## The invariant and the proof data -/

/-- The two scratch buffers the launch hands the region, each whole at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The region invariant before position `n`: before the first point both scratch buffers hold anything; afterwards the
    first holds `S0` and the second satisfies `Inv1 n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) scM0 fullShare (S0 m c) ∗ (∃ d, ⌜Inv1 m c (n + 1) d⌝ ∗ owns (c : Thread nD τ) scM1 fullShare d))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (S0 m c) ∗ (∃ d, ⌜Inv1 m c (n + 1) d⌝ ∗ owns (c : Thread nD τ) scM1 fullShare d)) := rfl

theorem PhiS_pos (c : Dev nD) (n : ℕ) (h : n ≤ cfg0.N) (hz : n ≠ 0) :
    PhiS m c n h = iprop(owns (c : Thread nD τ) scM0 fullShare (S0 m c) ∗ (∃ d, ⌜Inv1 m c n d⌝ ∗ owns (c : Thread nD τ) scM1 fullShare d)) := by
  cases n with
  | zero => exact absurd rfl hz
  | succ n => rfl

/-- The proof data of the one pipeline on core `c`: the arrays as the region finds them; after the body each input's
    buffer at its block and the result's at `out9`; the invariant `PhiS`; nothing owed; the adjacency's full share dealt
    in halves to the two windows that read it, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from rfl, after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from rfl, after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from rfl, after_2]
theorem leaves_3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from rfl, after_3]
theorem leaves_4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from rfl, after_4]
theorem leaves_5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from rfl, after_5]
theorem leaves_6 (c : Dev nD) (t : Fin cfg0.N) :
    (dats m 0 c).leavesExact 6 t = owns (c : Thread nD τ) (ms6 t) fullShare (iblk m c 6 t) := by
  rw [show (dats m 0 c).leavesExact 6 t = owns (c : Thread nD τ) (ms6 t) fullShare ((dats m 0 c).after 6 t) from rfl, after_6]
theorem leaves_7 (c : Dev nD) (t : Fin cfg0.N) :
    (dats m 0 c).leavesExact 7 t = owns (c : Thread nD τ) (ms7 t) fullShare (iblk m c 7 t) := by
  rw [show (dats m 0 c).leavesExact 7 t = owns (c : Thread nD τ) (ms7 t) fullShare ((dats m 0 c).after 7 t) from rfl, after_7]
theorem leaves_8 (c : Dev nD) (t : Fin cfg0.N) :
    (dats m 0 c).leavesExact 8 t = owns (c : Thread nD τ) (ms8 t) fullShare (iblk m c 8 t) := by
  rw [show (dats m 0 c).leavesExact 8 t = owns (c : Thread nD τ) (ms8 t) fullShare ((dats m 0 c).after 8 t) from rfl, after_8]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point: its position says which phase it is in; the inputs' buffers hold their blocks; the run of that
    phase applies; the invariant hands over the scratch buffers at what the points before left and takes them back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8]
  have hN := N51 t
  by_cases hz : t.val = 0
  · rw [Dat.leavesExact_idle (dats m 0 c) 9 t (idle9_early t (by omega)) (noFlush9_early t (by omega))]
    rw [PhiS_castSucc m c t, PhiS_zero m c _ _ hz, scoped_eq]
    obtain rfl : t = t0 := Fin.ext hz
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) scM0 (Memref.isWhole_whole _) scM1 (Memref.isWhole_whole _) (hA1 t0 rfl) (hA2 t0 rfl) (hA3 t0 rfl)
      (iblk m c 0 t0) (iblk m c 3 t0) (iblk m c 4 t0) (iblk m c 5 t0) (iblk m c 6 t0)).2 Set.univ _)
    isplitl [H0]; · iexact H0
    isplitl [H3]; · iexact H3
    isplitl [H4]; · iexact H4
    isplitl [H5]; · iexact H5
    isplitl [H6]; · iexact H6
    isplitl [HS0]; · iexact HS0
    iintro ⟨H0, H3, H4, H5, H6, ⟨%es0, HS0⟩⟩
    isplitl [HS0 HS1]
    · isplitl [HS0]
      · unfold owns; iexists _; isplitr
        swap; · iexact HS0
        ipureintro; exact read_LS0 m c _
      · icases HS1 with ⟨%d, HS1⟩
        iexists d; isplitr; · ipureintro; exact inv1_one m c d
        iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases hl : t.val ≤ 25
    · rw [Dat.leavesExact_idle (dats m 0 c) 9 t (idle9_early t hl) (noFlush9_early t hl)]
      rw [PhiS_castSucc m c t, PhiS_pos m c _ _ hz]
      iintro ⟨⟨HS0, ⟨%d, %hd, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t hz) (hB2 t hz hl) (hB3 t hl)
        (iblk m c 1 t) (iblk m c 2 t) (iblk m c 7 t) (iblk m c 8 t) (S0 m c) d).2 Set.univ _)
      isplitl [H1]; · iexact H1
      isplitl [H2]; · iexact H2
      isplitl [H7]; · iexact H7
      isplitl [H8]; · iexact H8
      isplitl [HS0]; · iexact HS0
      isplitl [HS1]; · iexact HS1
      iintro ⟨H1, H2, H7, H8, HS0, HS1⟩
      isplitl [HS0 HS1]
      · isplitl [HS0]; · iexact HS0
        iexists _; isplitr; · ipureintro; exact inv1_step m c t hz hl d hd
        unfold owns; iexists _; isplitr; · ipureintro; rfl
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hl' : 25 < t.val := by omega
      rw [show (dats m 0 c).leavesExact 9 t = owns (c : Thread nD τ) (ms9 t) fullShare ((dats m 0 c).after 9 t) from by
        unfold Dat.leavesExact; rw [live9_late t hl'], after_9]
      rw [PhiS_castSucc m c t, PhiS_pos m c _ _ hz]
      iintro ⟨⟨HS0, ⟨%d, %hd, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := inv1_full m c t.val hl' d hd
      iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (hB1 t hz) (hC2 t hl') (hC3 t hl')
        (iblk m c 1 t) (iblk m c 2 t) (H2full m c)).2 Set.univ _)
      isplitl [H1]; · iexact H1
      isplitl [H2]; · iexact H2
      isplitl [HS1]; · iexact HS1
      isplitl [H9]; · iexists _; iexact H9
      iintro ⟨H1, H2, HS1, ⟨%e9, H9⟩⟩
      isplitl [HS0 HS1]
      · isplitl [HS0]; · iexact HS0
        iexists _; isplitr; · ipureintro; exact inv1_late m c t.val hl' _ hd
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact read_L9 m c t hl' _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives the scratch buffers back at some contents. -/
theorem hout (c : Dev nD) : (dats m 0 c).Φ (Fin.last cfg0.N)
    ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 51 := N_0; omega), scoped_eq]
  iintro ⟨HS0, ⟨%d, -, HS1⟩⟩
  isplitl [HS0]
  · iexists _; iexact HS0
  · iexists _; iexact HS1

end Cert.KernelIdeal.Frm

end
-- ==== Proof.KI.Launch.lean ====
/-
  The launch of `KernelIdeal`'s kernel and its frame. The adjacency array is read by two windows, so its full share is dealt
  to them in halves when the region is entered; every other array goes to its one window whole. From the body obligation
  the region runs over its 51 grid points and ends with every windowed array at what the proof data computes — an input
  as it was, the result overwritten block by block by what the third phase left — and every other buffer as the region
  found it. Hence the frame: @main terminates, faults nowhere, and leaves its eight argument arrays as launched.
-/
import proofs.«109255_g1735166787695_cont_8to1_331_10_alg».proof.Proof.KI.Body
import Idealize.ShloMosaic.Lib.Pipeline.Frame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_0 (c : Dev nD) : (dats m 0 c).share 0 = fullShare := by
  unfold Dat.share; rw [if_neg (by decide)]; dsimp only [dats]
theorem share_3 (c : Dev nD) : (dats m 0 c).share 3 = fullShare := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_neg (by decide)]; dsimp only [dats]
theorem share_7 (c : Dev nD) : (dats m 0 c).share 7 = fullShare := by
  unfold Dat.share; rw [if_neg (by decide)]; dsimp only [dats]
theorem share_8 (c : Dev nD) : (dats m 0 c).share 8 = fullShare := by
  unfold Dat.share; rw [if_neg (by decide)]; dsimp only [dats]
theorem share_1 (c : Dev nD) : (dats m 0 c).share 1 = fullShare.left := by
  unfold Dat.share; rw [if_neg (by decide)]; dsimp only [dats]
theorem share_2 (c : Dev nD) : (dats m 0 c).share 2 = fullShare.right := by
  unfold Dat.share; rw [if_neg (by decide)]; dsimp only [dats]
theorem share_9 (c : Dev nD) : (dats m 0 c).share 9 = fullShare := by
  unfold Dat.share; rw [if_pos (by decide)]

/-- A window's array at the region's entry, as the points-to of its buffer. -/
theorem arr_pt (c : Dev nD) (w : Fin cfg0.W) (q : PosShare TreeShare) :
    ((cfg0.win w).arr.view.loc (c.tc : Thread nD τ) ↦[(cfg0.win w).arr.view.set]{q} (dats m 0 c).arrAt w 0 : sProp 𝕄)
      = (((c.tc : Thread nD τ).loc (Pipeline.arrRef spec0 w)) ↦{q} V m c (Pipeline.arrRef spec0 w)) := by
  rw [(arr_whole0 w).set_eq_univ]; rfl

/-- The distinct buffers behind the ten windows' arrays: nine, the adjacency being two windows'. -/
theorem arrImage : (Finset.univ.image (Pipeline.arrRef spec0) : Finset (Ref sig .tc))
    = [main_arg0, main_arg1, main_arg2, main_v0, main_arg4, main_v1, main_arg6, main_v2, main_v3].toFinset := by decide +kernel
theorem arrNodup : ([main_arg0, main_arg1, main_arg2, main_v0, main_arg4, main_v1, main_arg6, main_v2, main_v3] : List (Ref sig .tc)).Nodup := by decide

/-- Those nine buffers, each whole at the full share, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_arg4) ↦{fullShare} W main_arg4) ∗ (((c : Thread nD τ).loc main_v1) ↦{fullShare} W main_v1) ∗ (((c : Thread nD τ).loc main_arg6) ↦{fullShare} W main_arg6) ∗ (((c : Thread nD τ).loc main_v2) ↦{fullShare} W main_v2) ∗ (((c : Thread nD τ).loc main_v3) ↦{fullShare} W main_v3)) := by
  unfold Pipeline.arrBufs
  exact Idealize.SL.BI.bigSep_eq_bigSepL_of_eq [main_arg0, main_arg1, main_arg2, main_v0, main_arg4, main_v1, main_arg6, main_v2, main_v3] arrImage arrNodup _

/-- The buffers behind the windows' arrays, each whole at the full share, are the proof data's arrays at entry: the
    adjacency split between its two windows. -/
theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  rw [share_0 m c, share_1 m c, share_2 m c, share_3 m c, share_4 m c, share_5 m c, share_6 m c, share_7 m c, share_8 m c, share_9 m c]
  iintro ⟨H0, H1, H2, H3, H4, H5, H6, H7, H8⟩
  ihave H1' := (pointsTo_share (PosShare.mem_left_op_right fullShare)).1 $$ H1
  icases H1' with ⟨H1l, H1r⟩
  isplitl [H0]; · iapply (Entails.of_eq (arr_pt m c 0 fullShare).symm); iexact H0
  isplitl [H1l]; · iapply (Entails.of_eq (arr_pt m c 1 fullShare.left).symm); iexact H1l
  isplitl [H1r]; · iapply (Entails.of_eq (arr_pt m c 2 fullShare.right).symm); iexact H1r
  isplitl [H2]; · iapply (Entails.of_eq (arr_pt m c 3 fullShare).symm); iexact H2
  isplitl [H3]; · iapply (Entails.of_eq (arr_pt m c 4 fullShare).symm); iexact H3
  isplitl [H4]; · iapply (Entails.of_eq (arr_pt m c 5 fullShare).symm); iexact H4
  isplitl [H5]; · iapply (Entails.of_eq (arr_pt m c 6 fullShare).symm); iexact H5
  isplitl [H6]; · iapply (Entails.of_eq (arr_pt m c 7 fullShare).symm); iexact H6
  isplitl [H7]; · iapply (Entails.of_eq (arr_pt m c 8 fullShare).symm); iexact H7
  iapply (Entails.of_eq (arr_pt m c 9 fullShare).symm); iexact H8

/-! ## The run -/

set_option backward.isDefEq.respectTransparency.types false in
/-- At the compiled mesh, from any memory with zero counters: every weakly fair execution of @main terminates, and every
    final state has every windowed array at what the library computes from the proof data and every other unscoped
    buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := Idealize.SL.BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      exact (show _ ⊢ (Pipeline.scopedRest (Ix := Unit) (Name := ℕ) (U := UR sig nD τ) (Lvl := ℕ) (Val := Elt F) spec0 c : sProp 𝕄) from by
        iintro ⟨-, HR⟩; iexact HR).trans (hin m c))
    (hout := fun c => by
      refine (hout m c).trans ?_
      iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Frm.run_main' depends on axioms: [propext, Classical.choice, Quot.sound] -/
#guard_msgs in #print axioms run_main

/-! ## The frame -/

/-- @main runs and leaves its eight argument arrays as launched: the five that windows stage are inputs, which the region
    only reads; the three bias rows bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩)
    (run_main m ρ)

end Cert.KernelIdeal.Frm

end
-- ==== Proof.KI.Blocks.lean ====
/-
  What each input window's block holds at a grid point, read off the launch-time memory.

  Windows 0, 3, 5, 7 are whole arrays (the node features and the three weight matrices): their one block is the array.
  Windows 4, 6, 8 are the three bias rows, reshaped by the host from n entries to 1 × n before the region: entry (0, j)
  of the block is entry j of the launched row. Windows 1 and 2 both look at the adjacency in blocks of 200 rows by all
  10000 columns: at grid point t window 1 holds row block 2 ((t − 1) mod 25) and window 2 the next one, so row p of the
  block is row 400 ((t − 1) mod 25) + p, respectively 400 ((t − 1) mod 25) + 200 + p, of the adjacency (the
  subtraction is truncated: point 0 looks where point 1 does).
-/
import proofs.«109255_g1735166787695_cont_8to1_331_10_alg».proof.Proof.KI.Base
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The whole-array windows -/

/-- Window 0's block index is (0, 0) at every grid point: the window is its whole array. -/
theorem index_0 : ∀ t : Fin cfg0.N, win0_0.index t (0 : Fin 2) = 0 ∧ win0_0.index t (1 : Fin 2) = 0 :=
  (by decide +kernel : ∀ t : Fin grid0.N, _)

/-- Window 0's block at any grid point is the whole launch-time array `main_arg0`. -/
theorem iblk_0 (c : Dev nD) (t : Fin cfg0.N) :
    (iblk m c 0 t : S10000x128.Idx → Elt F .f32) = m ((c : Thread nD τ).loc main_arg0) := by
  funext y
  show V m c main_arg0 (((cfg0.win 0).blk t).view.emb y) = _
  rw [V_main_arg0]
  obtain ⟨e0, e1⟩ := index_0 t
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 3's block index is (0, 0) at every grid point: the window is its whole array. -/
theorem index_3 : ∀ t : Fin cfg0.N, win0_3.index t (0 : Fin 2) = 0 ∧ win0_3.index t (1 : Fin 2) = 0 :=
  (by decide +kernel : ∀ t : Fin grid0.N, _)

/-- Window 3's block at any grid point is the whole launch-time array `main_arg2`. -/
theorem iblk_3 (c : Dev nD) (t : Fin cfg0.N) :
    (iblk m c 3 t : S128x64.Idx → Elt F .f32) = m ((c : Thread nD τ).loc main_arg2) := by
  funext y
  show V m c main_arg2 (((cfg0.win 3).blk t).view.emb y) = _
  rw [V_main_arg2]
  obtain ⟨e0, e1⟩ := index_3 t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Window 5's block index is (0, 0) at every grid point: the window is its whole array. -/
theorem index_5 : ∀ t : Fin cfg0.N, win0_5.index t (0 : Fin 2) = 0 ∧ win0_5.index t (1 : Fin 2) = 0 :=
  (by decide +kernel : ∀ t : Fin grid0.N, _)

/-- Window 5's block at any grid point is the whole launch-time array `main_arg4`. -/
theorem iblk_5 (c : Dev nD) (t : Fin cfg0.N) :
    (iblk m c 5 t : S64x32.Idx → Elt F .f32) = m ((c : Thread nD τ).loc main_arg4) := by
  funext y
  show V m c main_arg4 (((cfg0.win 5).blk t).view.emb y) = _
  rw [V_main_arg4]
  obtain ⟨e0, e1⟩ := index_5 t
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 32 + 1 * (y 1).val = (y 1).val; omega

/-- Window 7's block index is (0, 0) at every grid point: the window is its whole array. -/
theorem index_7 : ∀ t : Fin cfg0.N, win0_7.index t (0 : Fin 2) = 0 ∧ win0_7.index t (1 : Fin 2) = 0 :=
  (by decide +kernel : ∀ t : Fin grid0.N, _)

/-- Window 7's block at any grid point is the whole launch-time array `main_arg6`. -/
theorem iblk_7 (c : Dev nD) (t : Fin cfg0.N) :
    (iblk m c 7 t : S32x16.Idx → Elt F .f32) = m ((c : Thread nD τ).loc main_arg6) := by
  funext y
  show V m c main_arg6 (((cfg0.win 7).blk t).view.emb y) = _
  rw [V_main_arg6]
  obtain ⟨e0, e1⟩ := index_7 t
  refine congrArg _ (funext fun a => Fin.ext ?_)
  match a with
  | ⟨0, _⟩ => show win0_7.index t (0 : Fin 2) * 32 + 1 * (y 0).val = (y 0).val; omega
  | ⟨1, _⟩ => show win0_7.index t (1 : Fin 2) * 16 + 1 * (y 1).val = (y 1).val; omega

/-! ## The bias rows -/

/-- The host's reshape of `main_arg3` to 1 × 64, as the region finds it. -/
theorem V_main_v0 (c : Dev nD) :
    (V m c main_v0 : S1x64.Idx → Elt F .f32) = shapeCast S1x64 (m ((c : Thread nD τ).loc main_arg3)) shapeCasts_S64_S1x64 := by
  dsimp only [V, hostOps0]; after_results; rfl

/-- Window 4's block index is (0, 0) at every grid point: the window is its whole array. -/
theorem index_4 : ∀ t : Fin cfg0.N, win0_4.index t (0 : Fin 2) = 0 ∧ win0_4.index t (1 : Fin 2) = 0 :=
  (by decide +kernel : ∀ t : Fin grid0.N, _)

/-- Window 4's block at any grid point is the whole 1 × 64 row the host reshaped `main_arg3` to. -/
theorem iblk_4_V (c : Dev nD) (t : Fin cfg0.N) :
    (iblk m c 4 t : S1x64.Idx → Elt F .f32) = V m c main_v0 := by
  funext y
  show V m c main_v0 (((cfg0.win 4).blk t).view.emb y) = _
  obtain ⟨e0, e1⟩ := index_4 t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 4's block at column `j` of its one row is entry `j` of the launch-time row `main_arg3`. -/
theorem iblk_4 (c : Dev nD) (t : Fin cfg0.N) (j : Fin 64) :
    iblk m c 4 t (ix2 (0 : Fin 1) j) = m ((c : Thread nD τ).loc main_arg3) (ix1 j) := by
  have h := congrFun (iblk_4_V m c t) (ix2 (0 : Fin 1) j)
  refine h.trans ?_
  rw [V_main_v0]
  refine (shapeCast_addUnit_apply (n := 1) ![64] _ _ _).trans ?_
  exact congrArg _ (funext fun a => match a with | ⟨0, _⟩ => rfl)

/-- The host's reshape of `main_arg5` to 1 × 32, as the region finds it. -/
theorem V_main_v1 (c : Dev nD) :
    (V m c main_v1 : S1x32.Idx → Elt F .f32) = shapeCast S1x32 (m ((c : Thread nD τ).loc main_arg5)) shapeCasts_S32_S1x32 := by
  dsimp only [V, hostOps0]; after_results; rfl

/-- Window 6's block index is (0, 0) at every grid point: the window is its whole array. -/
theorem index_6 : ∀ t : Fin cfg0.N, win0_6.index t (0 : Fin 2) = 0 ∧ win0_6.index t (1 : Fin 2) = 0 :=
  (by decide +kernel : ∀ t : Fin grid0.N, _)

/-- Window 6's block at any grid point is the whole 1 × 32 row the host reshaped `main_arg5` to. -/
theorem iblk_6_V (c : Dev nD) (t : Fin cfg0.N) :
    (iblk m c 6 t : S1x32.Idx → Elt F .f32) = V m c main_v1 := by
  funext y
  show V m c main_v1 (((cfg0.win 6).blk t).view.emb y) = _
  obtain ⟨e0, e1⟩ := index_6 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- Window 6's block at column `j` of its one row is entry `j` of the launch-time row `main_arg5`. -/
theorem iblk_6 (c : Dev nD) (t : Fin cfg0.N) (j : Fin 32) :
    iblk m c 6 t (ix2 (0 : Fin 1) j) = m ((c : Thread nD τ).loc main_arg5) (ix1 j) := by
  have h := congrFun (iblk_6_V m c t) (ix2 (0 : Fin 1) j)
  refine h.trans ?_
  rw [V_main_v1]
  refine (shapeCast_addUnit_apply (n := 1) ![32] _ _ _).trans ?_
  exact congrArg _ (funext fun a => match a with | ⟨0, _⟩ => rfl)

/-- The host's reshape of `main_arg7` to 1 × 16, as the region finds it. -/
theorem V_main_v2 (c : Dev nD) :
    (V m c main_v2 : S1x16.Idx → Elt F .f32) = shapeCast S1x16 (m ((c : Thread nD τ).loc main_arg7)) shapeCasts_S16_S1x16 := by
  dsimp only [V, hostOps0]; after_results; rfl

/-- Window 8's block index is (0, 0) at every grid point: the window is its whole array. -/
theorem index_8 : ∀ t : Fin cfg0.N, win0_8.index t (0 : Fin 2) = 0 ∧ win0_8.index t (1 : Fin 2) = 0 :=
  (by decide +kernel : ∀ t : Fin grid0.N, _)

/-- Window 8's block at any grid point is the whole 1 × 16 row the host reshaped `main_arg7` to. -/
theorem iblk_8_V (c : Dev nD) (t : Fin cfg0.N) :
    (iblk m c 8 t : S1x16.Idx → Elt F .f32) = V m c main_v2 := by
  funext y
  show V m c main_v2 (((cfg0.win 8).blk t).view.emb y) = _
  obtain ⟨e0, e1⟩ := index_8 t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 16 + 1 * (y 1).val = (y 1).val; omega

/-- Window 8's block at column `j` of its one row is entry `j` of the launch-time row `main_arg7`. -/
theorem iblk_8 (c : Dev nD) (t : Fin cfg0.N) (j : Fin 16) :
    iblk m c 8 t (ix2 (0 : Fin 1) j) = m ((c : Thread nD τ).loc main_arg7) (ix1 j) := by
  have h := congrFun (iblk_8_V m c t) (ix2 (0 : Fin 1) j)
  refine h.trans ?_
  rw [V_main_v2]
  refine (shapeCast_addUnit_apply (n := 1) ![16] _ _ _).trans ?_
  exact congrArg _ (funext fun a => match a with | ⟨0, _⟩ => rfl)

/-! ## The two adjacency windows -/

/-- Window 1's block index at grid point `t`: row block 2 ((t − 1) mod 25) (truncated subtraction), column block 0. -/
theorem index_1 : ∀ t : Fin cfg0.N, win0_1.index t (0 : Fin 2) = 2 * ((t.val - 1) % 25) ∧ win0_1.index t (1 : Fin 2) = 0 :=
  (by decide +kernel : ∀ t : Fin grid0.N, _)

/-- Window 1's block at grid point `t`, row `p` and column `l`: the adjacency's row
    400 ((t − 1) mod 25) + p, column `l`. -/
theorem iblk_1 (c : Dev nD) (t : Fin cfg0.N) (p : Fin 200) (l : Fin 10000) :
    iblk m c 1 t (ix2 p l) = m ((c : Thread nD τ).loc main_arg1)
      (ix2 (⟨400 * ((t.val - 1) % 25) + p.val, by have := p.isLt; omega⟩ : Fin 10000) l) := by
  show V m c main_arg1 (((cfg0.win 1).blk t).view.emb (ix2 p l)) = _
  rw [V_main_arg1]
  obtain ⟨e0, e1⟩ := index_1 t
  refine congrArg _ (funext fun a => Fin.ext ?_)
  match a with
  | ⟨0, _⟩ => show win0_1.index t (0 : Fin 2) * 200 + 1 * p.val = 400 * ((t.val - 1) % 25) + p.val; omega
  | ⟨1, _⟩ => show win0_1.index t (1 : Fin 2) * 10000 + 1 * l.val = l.val; omega

/-- Window 2's block index at grid point `t`: row block 2 ((t − 1) mod 25) + 1 (truncated subtraction), column block 0. -/
theorem index_2 : ∀ t : Fin cfg0.N, win0_2.index t (0 : Fin 2) = 2 * ((t.val - 1) % 25) + 1 ∧ win0_2.index t (1 : Fin 2) = 0 :=
  (by decide +kernel : ∀ t : Fin grid0.N, _)

/-- Window 2's block at grid point `t`, row `p` and column `l`: the adjacency's row
    400 ((t − 1) mod 25) + 200 + p, column `l`. -/
theorem iblk_2 (c : Dev nD) (t : Fin cfg0.N) (p : Fin 200) (l : Fin 10000) :
    iblk m c 2 t (ix2 p l) = m ((c : Thread nD τ).loc main_arg1)
      (ix2 (⟨400 * ((t.val - 1) % 25) + 200 + p.val, by have := p.isLt; omega⟩ : Fin 10000) l) := by
  show V m c main_arg1 (((cfg0.win 2).blk t).view.emb (ix2 p l)) = _
  rw [V_main_arg1]
  obtain ⟨e0, e1⟩ := index_2 t
  refine congrArg _ (funext fun a => Fin.ext ?_)
  match a with
  | ⟨0, _⟩ => show win0_2.index t (0 : Fin 2) * 200 + 1 * p.val = 400 * ((t.val - 1) % 25) + 200 + p.val; omega
  | ⟨1, _⟩ => show win0_2.index t (1 : Fin 2) * 10000 + 1 * l.val = l.val; omega

end Cert.KernelIdeal.Frm

end
-- ==== Proof.PayloadsAtIndex.lean ====
/-
  The kernel's arithmetic, element by element, over the extended reals.

  Each value the kernel body stores is a composition of matrix products into a zero accumulator, additions of a
  bias row broadcast down the rows, and relu (max with 0).  Read at row `r` and column `j` these are plain sums
  over the contracted axis: a product of an A × K matrix with a K × B matrix is ∑ k, l (r, k) * m (k, j); the bias
  contributes its entry (0, j); the zero literals are 0; an identity reshape changes nothing.
-/
import proofs.«109255_g1735166787695_cont_8to1_331_10_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.PayloadsAtIndex

open Cert.KernelIdeal Cert.KernelIdeal.Gen Idealize.ShloMosaic Idealize.ShloMosaic.ValueIdx Idealize.SL.Sem

variable [Cert.KernelIdeal.Facts]

/-- The zero word of the float format is the extended real 0. -/
theorem zero_word : (Scalar.ofBits .f32 0x00000000#32 : Ideal .f32) = 0 := Ideal.ofBits_zero_f32

/-- The node features times the 128 × 64 weight matrix, into the zero accumulator, at row `p` and column `q`. -/
theorem features_mul_cols64_apply (l : FVec Ideal S10000x128 .f32) (m : FVec Ideal S128x64 .f32) (p : Fin 10000) (q : Fin 64) :
    matmul dot_S10000x128_S128x64_S10000x64_1_0_0_1_n_n none l m (constant (F := Ideal) S10000x64 .f32 0x00000000#32) (ix2 p q)
      = ∑ k : Fin 128, l (ix2 p k) * m (ix2 k q) := by
  refine (Ideal.matmul_constant_zero_apply dot_S10000x128_S128x64_S10000x64_1_0_0_1_n_n none l m (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
      match a with
      | ⟨0, _⟩ =>
        show (dot_S10000x128_S128x64_S10000x64_1_0_0_1_n_n.lhsIdx (ix2 p q) _ 0).val = p.val
        unfold DotDims.lhsIdx
        rw [dif_neg (show ¬(0 : Fin S10000x128.rank) ∈ dot_S10000x128_S128x64_S10000x64_1_0_0_1_n_n.lhsBatch by decide),
          dif_pos (show (0 : Fin S10000x128.rank) ∈ dot_S10000x128_S128x64_S10000x64_1_0_0_1_n_n.lhsNonContracting by decide)]
        rfl
      | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
      match a with
      | ⟨0, _⟩ => exact (dot_S10000x128_S128x64_S10000x64_1_0_0_1_n_n.rhsIdx_val_of_single rfl _ _).trans hk
      | ⟨1, _⟩ =>
        show (dot_S10000x128_S128x64_S10000x64_1_0_0_1_n_n.rhsIdx (ix2 p q) _ 1).val = q.val
        unfold DotDims.rhsIdx
        rw [dif_neg (show ¬(1 : Fin S128x64.rank) ∈ dot_S10000x128_S128x64_S10000x64_1_0_0_1_n_n.rhsBatch by decide),
          dif_pos (show (1 : Fin S128x64.rank) ∈ dot_S10000x128_S128x64_S10000x64_1_0_0_1_n_n.rhsNonContracting by decide)]
        rfl)
  rw [el, er]

/-- A 10000 × 64 matrix times the 64 × 32 weight matrix, into the zero accumulator, at row `p` and column `q`. -/
theorem hidden_mul_cols32_apply (l : FVec Ideal S10000x64 .f32) (m : FVec Ideal S64x32 .f32) (p : Fin 10000) (q : Fin 32) :
    matmul dot_S10000x64_S64x32_S10000x32_1_0_0_1_n_n none l m (constant (F := Ideal) S10000x32 .f32 0x00000000#32) (ix2 p q)
      = ∑ k : Fin 64, l (ix2 p k) * m (ix2 k q) := by
  refine (Ideal.matmul_constant_zero_apply dot_S10000x64_S64x32_S10000x32_1_0_0_1_n_n none l m (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k :=
    funext fun a => Fin.ext (by
      match a with
      | ⟨0, _⟩ =>
        show (dot_S10000x64_S64x32_S10000x32_1_0_0_1_n_n.lhsIdx (ix2 p q) _ 0).val = p.val
        unfold DotDims.lhsIdx
        rw [dif_neg (show ¬(0 : Fin S10000x64.rank) ∈ dot_S10000x64_S64x32_S10000x32_1_0_0_1_n_n.lhsBatch by decide),
          dif_pos (show (0 : Fin S10000x64.rank) ∈ dot_S10000x64_S64x32_S10000x32_1_0_0_1_n_n.lhsNonContracting by decide)]
        rfl
      | ⟨1, _⟩ => exact (dot_S10000x64_S64x32_S10000x32_1_0_0_1_n_n.lhsIdx_val_of_single rfl _ _).trans hk)
  have er : dot_S10000x64_S64x32_S10000x32_1_0_0_1_n_n.rhsIdx (ix2 p q) ((contrEquiv1 dot_S10000x64_S64x32_S10000x32_1_0_0_1_n_n 64 rfl rfl).symm k) = ix2 k q :=
    funext fun a => Fin.ext (by
      match a with
      | ⟨0, _⟩ => exact (dot_S10000x64_S64x32_S10000x32_1_0_0_1_n_n.rhsIdx_val_of_single rfl _ _).trans hk
      | ⟨1, _⟩ =>
        show (dot_S10000x64_S64x32_S10000x32_1_0_0_1_n_n.rhsIdx (ix2 p q) _ 1).val = q.val
        unfold DotDims.rhsIdx
        rw [dif_neg (show ¬(1 : Fin S64x32.rank) ∈ dot_S10000x64_S64x32_S10000x32_1_0_0_1_n_n.rhsBatch by decide),
          dif_pos (show (1 : Fin S64x32.rank) ∈ dot_S10000x64_S64x32_S10000x32_1_0_0_1_n_n.rhsNonContracting by decide)]
        rfl)
  rw [el, er]

/-- A block of 200 adjacency rows times a 10000 × 32 matrix, into the zero accumulator, at row `p` and column `q`. -/
theorem rows_mul_cols32_apply (l : FVec Ideal S200x10000 .f32) (m : FVec Ideal S10000x32 .f32) (p : Fin 200) (q : Fin 32) :
    matmul dot_S200x10000_S10000x32_S200x32_1_0_0_1_n_n none l m (constant (F := Ideal) S200x32 .f32 0x00000000#32) (ix2 p q)
      = ∑ k : Fin 10000, l (ix2 p k) * m (ix2 k q) := by
  refine (Ideal.matmul_constant_zero_apply dot_S200x10000_S10000x32_S200x32_1_0_0_1_n_n none l m (ix2 p q)).trans ?_
  rw [← Equiv.sum_comp (contrEquiv1 dot_S200x10000_S10000x32_S200x32_1_0_0_1_n_n 10000 rfl rfl).symm]
  refine Finset.sum_congr rfl fun k _ => ?_
  have hk := contrEquiv1_symm_val dot_S200x10000_S10000x32_S200x32_1_0_0_1_n_n 10000 rfl rfl k
  have el : dot_S200x10000_S10000x32_S200x32_1_0_0_1_n_n.lhsIdx (ix2 p q) ((contrEquiv1 dot_S200x10000_S10000x32_S200x32_1_0_0_1_n_n 10000 rfl rfl).symm k) = ix2 p k :=
    funext fun a => Fin.ext (by
      match a with
      | ⟨0, _⟩ =>
        show (dot_S200x10000_S10000x32_S200x32_1_0_0_1_n_n.lhsIdx (ix2 p q) _ 0).val = p.val
        unfold DotDims.lhsIdx
        rw [dif_neg (show ¬(0 : Fin S200x10000.rank) ∈ dot_S200x10000_S10000x32_S200x32_1_0_0_1_n_n.lhsBatch by decide),
          dif_pos (show (0 : Fin S200x10000.rank) ∈ dot_S200x10000_S10000x32_S200x32_1_0_0_1_n_n.lhsNonContracting by decide)]
        rfl
      | ⟨1, _⟩ => exact (dot_S200x10000_S10000x32_S200x32_1_0_0_1_n_n.lhsIdx_val_of_single rfl _ _).trans hk)
  have er : dot_S200x10000_S10000x32_S200x32_1_0_0_1_n_n.rhsIdx (ix2 p q) ((contrEquiv1 dot_S200x10000_S10000x32_S200x32_1_0_0_1_n_n 10000 rfl rfl).symm k) = ix2 k q :=
    funext fun a => Fin.ext (by
      match a with
      | ⟨0, _⟩ => exact (dot_S200x10000_S10000x32_S200x32_1_0_0_1_n_n.rhsIdx_val_of_single rfl _ _).trans hk
      | ⟨1, _⟩ =>
        show (dot_S200x10000_S10000x32_S200x32_1_0_0_1_n_n.rhsIdx (ix2 p q) _ 1).val = q.val
        unfold DotDims.rhsIdx
        rw [dif_neg (show ¬(1 : Fin S10000x32.rank) ∈ dot_S200x10000_S10000x32_S200x32_1_0_0_1_n_n.rhsBatch by decide),
          dif_pos (show (1 : Fin S10000x32.rank) ∈ dot_S200x10000_S10000x32_S200x32_1_0_0_1_n_n.rhsNonContracting by decide)]
        rfl)
  rw [el, er]

/-- A 200 × 32 block times the 32 × 16 weight matrix, into the zero accumulator, at row `p` and column `q`. -/
theorem rows32_mul_cols16_apply (l : FVec Ideal S200x32 .f32) (m : FVec Ideal S32x16 .f32) (p : Fin 200) (q : Fin 16) :
    matmul dot_S200x32_S32x16_S200x16_1_0_0_1_n_n none l m (constant (F := Ideal) S200x16 .f32 0x00000000#32) (ix2 p q)
      = ∑ k : Fin 32, l (ix2 p k) * m (ix2 k q) := by
  refine (Ideal.matmul_constant_zero_apply dot_S200x32_S32x16_S200x16_1_0_0_1_n_n none l m (ix2 p q)).trans ?_
  rw [← Equiv.sum_comp (contrEquiv1 dot_S200x32_S32x16_S200x16_1_0_0_1_n_n 32 rfl rfl).symm]
  refine Finset.sum_congr rfl fun k _ => ?_
  have hk := contrEquiv1_symm_val dot_S200x32_S32x16_S200x16_1_0_0_1_n_n 32 rfl rfl k
  have el : dot_S200x32_S32x16_S200x16_1_0_0_1_n_n.lhsIdx (ix2 p q) ((contrEquiv1 dot_S200x32_S32x16_S200x16_1_0_0_1_n_n 32 rfl rfl).symm k) = ix2 p k :=
    funext fun a => Fin.ext (by
      match a with
      | ⟨0, _⟩ =>
        show (dot_S200x32_S32x16_S200x16_1_0_0_1_n_n.lhsIdx (ix2 p q) _ 0).val = p.val
        unfold DotDims.lhsIdx
        rw [dif_neg (show ¬(0 : Fin S200x32.rank) ∈ dot_S200x32_S32x16_S200x16_1_0_0_1_n_n.lhsBatch by decide),
          dif_pos (show (0 : Fin S200x32.rank) ∈ dot_S200x32_S32x16_S200x16_1_0_0_1_n_n.lhsNonContracting by decide)]
        rfl
      | ⟨1, _⟩ => exact (dot_S200x32_S32x16_S200x16_1_0_0_1_n_n.lhsIdx_val_of_single rfl _ _).trans hk)
  have er : dot_S200x32_S32x16_S200x16_1_0_0_1_n_n.rhsIdx (ix2 p q) ((contrEquiv1 dot_S200x32_S32x16_S200x16_1_0_0_1_n_n 32 rfl rfl).symm k) = ix2 k q :=
    funext fun a => Fin.ext (by
      match a with
      | ⟨0, _⟩ => exact (dot_S200x32_S32x16_S200x16_1_0_0_1_n_n.rhsIdx_val_of_single rfl _ _).trans hk
      | ⟨1, _⟩ =>
        show (dot_S200x32_S32x16_S200x16_1_0_0_1_n_n.rhsIdx (ix2 p q) _ 1).val = q.val
        unfold DotDims.rhsIdx
        rw [dif_neg (show ¬(1 : Fin S32x16.rank) ∈ dot_S200x32_S32x16_S200x16_1_0_0_1_n_n.rhsBatch by decide),
          dif_pos (show (1 : Fin S32x16.rank) ∈ dot_S200x32_S32x16_S200x16_1_0_0_1_n_n.rhsNonContracting by decide)]
        rfl)
  rw [el, er]

/-- A block of 200 adjacency rows times a 10000 × 16 matrix, into the zero accumulator, at row `p` and column `q`. -/
theorem rows_mul_cols16_apply (l : FVec Ideal S200x10000 .f32) (m : FVec Ideal S10000x16 .f32) (p : Fin 200) (q : Fin 16) :
    matmul dot_S200x10000_S10000x16_S200x16_1_0_0_1_n_n none l m (constant (F := Ideal) S200x16 .f32 0x00000000#32) (ix2 p q)
      = ∑ k : Fin 10000, l (ix2 p k) * m (ix2 k q) := by
  refine (Ideal.matmul_constant_zero_apply dot_S200x10000_S10000x16_S200x16_1_0_0_1_n_n none l m (ix2 p q)).trans ?_
  rw [← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 p q) ((contrEquiv1 dot_S200x10000_S10000x16_S200x16_1_0_0_1_n_n 10000 rfl rfl).symm k) = ix2 p k :=
    funext fun a => Fin.ext (by
      match a with
      | ⟨0, _⟩ =>
        show (dot_S200x10000_S10000x16_S200x16_1_0_0_1_n_n.lhsIdx (ix2 p q) _ 0).val = p.val
        unfold DotDims.lhsIdx
        rw [dif_neg (show ¬(0 : Fin S200x10000.rank) ∈ dot_S200x10000_S10000x16_S200x16_1_0_0_1_n_n.lhsBatch by decide),
          dif_pos (show (0 : Fin S200x10000.rank) ∈ dot_S200x10000_S10000x16_S200x16_1_0_0_1_n_n.lhsNonContracting by decide)]
        rfl
      | ⟨1, _⟩ => exact (dot_S200x10000_S10000x16_S200x16_1_0_0_1_n_n.lhsIdx_val_of_single rfl _ _).trans hk)
  have er : dot_S200x10000_S10000x16_S200x16_1_0_0_1_n_n.rhsIdx (ix2 p q) ((contrEquiv1 dot_S200x10000_S10000x16_S200x16_1_0_0_1_n_n 10000 rfl rfl).symm k) = ix2 k q :=
    funext fun a => Fin.ext (by
      match a with
      | ⟨0, _⟩ => exact (dot_S200x10000_S10000x16_S200x16_1_0_0_1_n_n.rhsIdx_val_of_single rfl _ _).trans hk
      | ⟨1, _⟩ =>
        show (dot_S200x10000_S10000x16_S200x16_1_0_0_1_n_n.rhsIdx (ix2 p q) _ 1).val = q.val
        unfold DotDims.rhsIdx
        rw [dif_neg (show ¬(1 : Fin S10000x16.rank) ∈ dot_S200x10000_S10000x16_S200x16_1_0_0_1_n_n.rhsBatch by decide),
          dif_pos (show (1 : Fin S10000x16.rank) ∈ dot_S200x10000_S10000x16_S200x16_1_0_0_1_n_n.rhsNonContracting by decide)]
        rfl)
  rw [el, er]

/-- A bias row of 64 entries broadcast down 10000 rows reads its entry in the column. -/
theorem bias_10000x64_apply (b : Vec Ideal S1x64 .f32) (h : S1x64.ShapeCasts S1x64) (h' : S1x64.Broadcasts S10000x64)
    (r : Fin 10000) (j : Fin 64) :
    broadcastTo S10000x64 (shapeCast S1x64 b h) h' (ix2 r j) = b (ix2 0 j) := by
  rw [shapeCast_self]
  exact broadcastTo_apply b h' (ix2 r j) (ix2 0 j) (fun a => match a with
    | ⟨0, _⟩ => by show 0 = if (1 : Nat) = 1 then 0 else r.val; rw [if_pos rfl]
    | ⟨1, _⟩ => by show j.val = if (64 : Nat) = 1 then 0 else j.val; rw [if_neg (by decide)])

/-- A bias row of 32 entries broadcast down 10000 rows reads its entry in the column. -/
theorem bias_10000x32_apply (b : Vec Ideal S1x32 .f32) (h : S1x32.ShapeCasts S1x32) (h' : S1x32.Broadcasts S10000x32)
    (r : Fin 10000) (j : Fin 32) :
    broadcastTo S10000x32 (shapeCast S1x32 b h) h' (ix2 r j) = b (ix2 0 j) := by
  rw [shapeCast_self]
  exact broadcastTo_apply b h' (ix2 r j) (ix2 0 j) (fun a => match a with
    | ⟨0, _⟩ => by show 0 = if (1 : Nat) = 1 then 0 else r.val; rw [if_pos rfl]
    | ⟨1, _⟩ => by show j.val = if (32 : Nat) = 1 then 0 else j.val; rw [if_neg (by decide)])

/-- A bias row of 16 entries broadcast down 200 rows reads its entry in the column. -/
theorem bias_200x16_apply (b : Vec Ideal S1x16 .f32) (h : S1x16.ShapeCasts S1x16) (h' : S1x16.Broadcasts S200x16)
    (r : Fin 200) (j : Fin 16) :
    broadcastTo S200x16 (shapeCast S1x16 b h) h' (ix2 r j) = b (ix2 0 j) := by
  rw [shapeCast_self]
  exact broadcastTo_apply b h' (ix2 r j) (ix2 0 j) (fun a => match a with
    | ⟨0, _⟩ => by show 0 = if (1 : Nat) = 1 then 0 else r.val; rw [if_pos rfl]
    | ⟨1, _⟩ => by show j.val = if (16 : Nat) = 1 then 0 else j.val; rw [if_neg (by decide)])

/-- The second aggregation's block: relu of the adjacency rows times the 16-column matrix. -/
theorem pay3_apply (a : Vec Ideal S200x10000 .f32) (g : Vec Ideal S10000x16 .f32) (r : Fin 200) (j : Fin 16) :
    k0_pay3 (F := Ideal) a g (ix2 r j) = max (∑ l : Fin 10000, a (ix2 r l) * g (ix2 l j)) 0 := by
  unfold k0_pay3
  exact congrArg₂ max (rows_mul_cols16_apply a g r j) zero_word

/-- The same block for the second half of the rows. -/
theorem pay4_apply (a : Vec Ideal S200x10000 .f32) (g : Vec Ideal S10000x16 .f32) (r : Fin 200) (j : Fin 16) :
    k0_pay4 (F := Ideal) a g (ix2 r j) = max (∑ l : Fin 10000, a (ix2 r l) * g (ix2 l j)) 0 := by
  unfold k0_pay4
  exact congrArg₂ max (rows_mul_cols16_apply a g r j) zero_word

/-- An identity reshape of a 200 × 16 block changes no element. -/
theorem pay2_apply (v : FVec Ideal S200x16 .f32) (i : S200x16.Idx) : k0_pay2 (F := Ideal) v i = v i := by
  unfold k0_pay2
  exact congrFun (shapeCast_self v _) i

/-- The first aggregation followed by the second linear layer, before the final reshape:
    relu (adjacency rows · h) · W₂ + b₂ at row `r` and column `j`. -/
theorem pay6_core_apply (a : Vec Ideal S200x10000 .f32) (h : Vec Ideal S10000x32 .f32) (w2 : Vec Ideal S32x16 .f32)
    (b2 : Vec Ideal S1x16 .f32) (r : Fin 200) (j : Fin 16) :
    k0_pay6 (F := Ideal) a h w2 b2 (ix2 r j)
      = (∑ k : Fin 32, max (∑ l : Fin 10000, a (ix2 r l) * h (ix2 l k)) 0 * w2 (ix2 k j)) + b2 (ix2 0 j) := by
  unfold k0_pay6
  refine congrArg₂ (· + ·) ?_ (bias_200x16_apply b2 _ _ r j)
  refine (rows32_mul_cols16_apply _ w2 r j).trans ?_
  refine Finset.sum_congr rfl fun k _ => ?_
  exact congrArg (· * w2 (ix2 k j)) (congrArg₂ max (rows_mul_cols32_apply a h r k) zero_word)

/-- The same value read through an identity reshape of the 200 × 16 block. -/
theorem pay5_apply (a : Vec Ideal S200x10000 .f32) (h : Vec Ideal S10000x32 .f32) (w2 : Vec Ideal S32x16 .f32)
    (b2 : Vec Ideal S1x16 .f32) (r : Fin 200) (j : Fin 16) :
    k0_pay5 (F := Ideal) a h w2 b2 (ix2 r j)
      = (∑ k : Fin 32, max (∑ l : Fin 10000, a (ix2 r l) * h (ix2 l k)) 0 * w2 (ix2 k j)) + b2 (ix2 0 j) := by
  unfold k0_pay5
  refine (congrFun (shapeCast_self _ _) (ix2 r j)).trans ?_
  refine congrArg₂ (· + ·) ?_ (bias_200x16_apply b2 _ _ r j)
  refine (rows32_mul_cols16_apply _ w2 r j).trans ?_
  refine Finset.sum_congr rfl fun k _ => ?_
  exact congrArg (· * w2 (ix2 k j)) (congrArg₂ max (rows_mul_cols32_apply a h r k) zero_word)

/-- The same value again, with the identity reshape applied as a separate step. -/
theorem pay6_apply (a : Vec Ideal S200x10000 .f32) (h : Vec Ideal S10000x32 .f32) (w2 : Vec Ideal S32x16 .f32)
    (b2 : Vec Ideal S1x16 .f32) (r : Fin 200) (j : Fin 16) :
    k0_pay2 (F := Ideal) (k0_pay6 (F := Ideal) a h w2 b2) (ix2 r j)
      = (∑ k : Fin 32, max (∑ l : Fin 10000, a (ix2 r l) * h (ix2 l k)) 0 * w2 (ix2 k j)) + b2 (ix2 0 j) :=
  (pay2_apply _ _).trans (pay6_core_apply a h w2 b2 r j)

/-- The first phase: relu (x · W + b) · W₁ + b₁ at row `r` and column `j`. -/
theorem pay1_apply (x : Vec Ideal S10000x128 .f32) (w : Vec Ideal S128x64 .f32) (b : Vec Ideal S1x64 .f32)
    (w1 : Vec Ideal S64x32 .f32) (b1 : Vec Ideal S1x32 .f32) (r : Fin 10000) (j : Fin 32) :
    k0_pay1 (F := Ideal) x w b w1 b1 (ix2 r j)
      = (∑ k : Fin 64, max ((∑ l : Fin 128, x (ix2 r l) * w (ix2 l k)) + b (ix2 0 k)) 0 * w1 (ix2 k j))
          + b1 (ix2 0 j) := by
  unfold k0_pay1
  refine (congrFun (shapeCast_self _ _) (ix2 r j)).trans ?_
  refine congrArg₂ (· + ·) ?_ (bias_10000x32_apply b1 _ _ r j)
  refine (hidden_mul_cols32_apply _ w1 r j).trans ?_
  refine Finset.sum_congr rfl fun k _ => ?_
  refine congrArg (· * w1 (ix2 k j)) (congrArg₂ max ?_ zero_word)
  exact congrArg₂ (· + ·) (features_mul_cols64_apply x w r k) (bias_10000x64_apply b _ _ r k)

end Cert.PayloadsAtIndex

end
-- ==== Proof.KI.ValueRows.lean ====
/-
  The two scratch arrays of the kernel are the specification's two linear parts.

  After the first grid point the first scratch holds, at row r and column j, relu (x · W_fc + b_fc) · W_g1 + b_g1 of the
  launched arrays: the first graph layer's linear part. A point t of the second phase (1 ≤ t ≤ 25) computes two
  blocks of 200 rows of relu (adj · that) · W_g2 + b_g2 from the adjacency rows 400 (t − 1) + 200 k + p (k = 0, 1;
  p < 200): the second graph layer's linear part at those rows. Row r of the second scratch is therefore that linear
  part at row r, r = 400 (r / 400) + 200 (r mod 400 / 200) + r mod 200.
-/
import proofs.«109255_g1735166787695_cont_8to1_331_10_alg».proof.Proof.KI.Data
import proofs.«109255_g1735166787695_cont_8to1_331_10_alg».proof.Proof.KI.Blocks
import proofs.«109255_g1735166787695_cont_8to1_331_10_alg».proof.Proof.PayloadsAtIndex
import proofs.«109255_g1735166787695_cont_8to1_331_10_alg».proof.Proof.Spec

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Idealize.ShloMosaic.Ideal) ℓ) (c : Dev nD)

/-- The first scratch after the first grid point is the first graph layer's linear part of the launched arrays. -/
theorem S0_eq (r : Fin 10000) (j : Fin 32) :
    S0 (F := Idealize.ShloMosaic.Ideal) m c (ix2 r j)
      = Cert.Spec.lin1 (m ((c : Thread nD τ).loc main_arg0)) (m ((c : Thread nD τ).loc main_arg2)) (m ((c : Thread nD τ).loc main_arg3)) (m ((c : Thread nD τ).loc main_arg4)) (m ((c : Thread nD τ).loc main_arg5)) r j := by
  unfold S0
  refine (Cert.PayloadsAtIndex.pay1_apply _ _ _ _ _ r j).trans ?_
  unfold Cert.Spec.lin1 Cert.Spec.hidden
  refine congrArg₂ (· + ·) ?_ (iblk_6 m c t0 j)
  refine Finset.sum_congr rfl fun k _ => ?_
  refine congrArg₂ (· * ·) (congrArg₂ max (congrArg₂ (· + ·) ?_ (iblk_4 m c t0 k)) rfl) (congrFun (iblk_5 m c t0) (ix2 k j))
  refine Finset.sum_congr rfl fun l _ => ?_
  exact congrArg₂ (· * ·) (congrFun (iblk_0 m c t0) (ix2 r l)) (congrFun (iblk_3 m c t0) (ix2 l k))

/-- A half block of the second phase is the second graph layer's linear part at the adjacency rows it reads. -/
theorem h2half_eq (t : Fin cfg0.N) (h1 : 1 ≤ t.val) (h2 : t.val ≤ 25) (k : Fin 2) (p : Fin 200) (j : Fin 16)
    (r : Fin 10000) (hr : r.val = 400 * (t.val - 1) + 200 * k.val + p.val) :
    h2half (F := Idealize.ShloMosaic.Ideal) m c t k (ix2 p j)
      = Cert.Spec.lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j := by
  have hmod : (t.val - 1) % 25 = t.val - 1 := by omega
  match k, hr with
  | ⟨0, _⟩, hr =>
    have hr' : r.val = 400 * (t.val - 1) + 200 * 0 + p.val := hr
    show k0_pay5 (iblk m c 1 t) (S0 m c) (iblk m c 7 t) (iblk m c 8 t) (ix2 p j) = _
    refine (Cert.PayloadsAtIndex.pay5_apply _ _ _ _ p j).trans ?_
    unfold Cert.Spec.lin2 Cert.Spec.agg1
    refine congrArg₂ (· + ·) ?_ (iblk_8 m c t j)
    refine Finset.sum_congr rfl fun q _ => ?_
    refine congrArg₂ (· * ·) (congrArg₂ max ?_ rfl) (congrFun (iblk_7 m c t) (ix2 q j))
    refine Finset.sum_congr rfl fun l _ => ?_
    refine congrArg₂ (· * ·) ((iblk_1 m c t p l).trans ?_) (S0_eq m c l q)
    exact congrArg (fun z : Fin 10000 => (m ((c : Thread nD τ).loc main_arg1)) (ix2 z l))
      (Fin.ext (by show 400 * ((t.val - 1) % 25) + p.val = r.val; omega))
  | ⟨1, _⟩, hr =>
    have hr' : r.val = 400 * (t.val - 1) + 200 * 1 + p.val := hr
    show k0_pay2 (k0_pay6 (iblk m c 2 t) (S0 m c) (iblk m c 7 t) (iblk m c 8 t)) (ix2 p j) = _
    refine (Cert.PayloadsAtIndex.pay6_apply _ _ _ _ p j).trans ?_
    unfold Cert.Spec.lin2 Cert.Spec.agg1
    refine congrArg₂ (· + ·) ?_ (iblk_8 m c t j)
    refine Finset.sum_congr rfl fun q _ => ?_
    refine congrArg₂ (· * ·) (congrArg₂ max ?_ rfl) (congrFun (iblk_7 m c t) (ix2 q j))
    refine Finset.sum_congr rfl fun l _ => ?_
    refine congrArg₂ (· * ·) ((iblk_2 m c t p l).trans ?_) (S0_eq m c l q)
    exact congrArg (fun z : Fin 10000 => (m ((c : Thread nD τ).loc main_arg1)) (ix2 z l))
      (Fin.ext (by show 400 * ((t.val - 1) % 25) + 200 + p.val = r.val; omega))

/-- The second scratch once the second phase is over is the second graph layer's linear part, row by row. -/
theorem H2full_eq (r : Fin 10000) (j : Fin 16) :
    H2full (F := Idealize.ShloMosaic.Ideal) m c (ix2 r j)
      = Cert.Spec.lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j := by
  have hr := r.isLt
  have hN : r.val / 400 + 1 < cfg0.N := by rw [show cfg0.N = 51 from N_0]; omega
  exact h2half_eq m c ⟨r.val / 400 + 1, hN⟩ (by show 1 ≤ r.val / 400 + 1; omega) (by show r.val / 400 + 1 ≤ 25; omega)
    ⟨r.val % 400 / 200, by omega⟩ ⟨r.val % 200, by omega⟩ j r
    (by show r.val = 400 * (r.val / 400 + 1 - 1) + 200 * (r.val % 400 / 200) + r.val % 200; omega)

end Cert.KernelIdeal.Frm

end
-- ==== Proof.KI.Cover.lean ====
/-
  The result window's blocks tile the result array.

  The result is a 10000 × 16 array written back in blocks of 400 rows × 16 columns. At a grid point t above 25 the
  window's block index is (t − 26, 0): the block holds rows 400 (t − 26) … 400 (t − 26) + 399 and every column, and the
  point writes it back. Row r therefore lies in the block of the point 26 + r / 400, and since 10000 = 25 · 400 these
  are the points 26 … 50: every index of the array is in the block of some point that writes back.
-/
import proofs.«109255_g1735166787695_cont_8to1_331_10_alg».proof.Proof.KI.Base
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Above point 25 the result window's block index is (t − 26, 0). -/
theorem idx9 : ∀ t : Fin cfg0.N, 25 < t.val →
    win0_9.index t (0 : Fin 2) = t.val - 26 ∧ win0_9.index t (1 : Fin 2) = 0 :=
  (by decide +kernel : ∀ t : Fin grid0.N, 25 < t.val →
    win0_9.index t (0 : Fin 2) = t.val - 26 ∧ win0_9.index t (1 : Fin 2) = 0)

/-- A grid point is below 51. -/
theorem point_lt (t : Fin cfg0.N) : t.val < 51 := lt_of_lt_of_eq t.isLt N_0

/-- An index of the result array is in point `t`'s block iff each coordinate is in the block's range on its axis. -/
theorem mem_blk9 (t : Fin cfg0.N) (i : S10000x16.Idx) :
    i ∈ ((cfg0.win 9).blk t).view.set ↔
      ∀ a : Fin 2, win0_9.index t a * S400x16.size a ≤ (i a).val
        ∧ (i a).val < win0_9.index t a * S400x16.size a + S400x16.size a := by
  show i ∈ ((View.whole main_v3).slice (win0_9.rect t)).set ↔ _
  rw [View.set_slice_whole, Rect.mem_set_unit]
  exact Iff.rfl

/-- Above point 25: in the block iff the row is one of the 400 rows from 400 (t − 26) on. -/
theorem mem_blk9_late (t : Fin cfg0.N) (ht : 25 < t.val) (i : S10000x16.Idx) :
    i ∈ ((cfg0.win 9).blk t).view.set ↔
      400 * (t.val - 26) ≤ (i 0).val ∧ (i 0).val < 400 * (t.val - 26) + 400 := by
  rw [mem_blk9]
  obtain ⟨e0, e1⟩ := idx9 t ht
  constructor
  · intro h
    have b0 : win0_9.index t (0 : Fin 2) * 400 ≤ (i 0).val ∧ (i 0).val < win0_9.index t (0 : Fin 2) * 400 + 400 := h 0
    omega
  · intro h a
    match a with
    | ⟨0, _⟩ =>
      show win0_9.index t (0 : Fin 2) * 400 ≤ (i 0).val ∧ (i 0).val < win0_9.index t (0 : Fin 2) * 400 + 400
      omega
    | ⟨1, _⟩ =>
      show win0_9.index t (1 : Fin 2) * 16 ≤ (i 1).val ∧ (i 1).val < win0_9.index t (1 : Fin 2) * 16 + 16
      have hi1 : (i 1).val < 16 := (i 1).isLt
      omega

/-- Every index of the result array is in the block of a point that writes back: row r in that of point 26 + r / 400. -/
theorem cover9_idx (i : S10000x16.Idx) :
    ∃ t : Fin cfg0.N, (cfg0.win 9).flush t = true ∧ i ∈ ((cfg0.win 9).blk t).view.set := by
  have hi0 : (i 0).val < 10000 := (i 0).isLt
  have hN : 26 + (i 0).val / 400 < cfg0.N := lt_of_lt_of_eq (by omega : 26 + (i 0).val / 400 < 51) N_0.symm
  have ht : 25 < (⟨26 + (i 0).val / 400, hN⟩ : Fin cfg0.N).val := by show 25 < 26 + (i 0).val / 400; omega
  refine ⟨⟨26 + (i 0).val / 400, hN⟩, flush9_late _ ht, ?_⟩
  rw [mem_blk9_late _ ht]
  show 400 * (26 + (i 0).val / 400 - 26) ≤ (i 0).val ∧ (i 0).val < 400 * (26 + (i 0).val / 400 - 26) + 400
  omega

/-- The same, over the index type of the window's array on core `c`. -/
theorem cover9 (c : Dev nD) : ∀ i : ((cfg0.win 9).arr.view.loc (c.tc : Thread nD τ)).2.ty.Idx,
    ∃ t : Fin cfg0.N, (cfg0.win 9).flush t = true ∧ i ∈ ((cfg0.win 9).blk t).view.set :=
  fun i => cover9_idx i

/-- Above point 25 the rows of a block stay inside the array. -/
theorem blk9_row_lt (t : Fin cfg0.N) (ht : 25 < t.val) (y : S400x16.Idx) : 400 * (t.val - 26) + (y 0).val < 10000 := by
  have h1 := point_lt t
  have h2 : (y 0).val < 400 := (y 0).isLt
  omega

/-- Above point 25, where an index inside the block sits in the array, coordinate by coordinate. -/
theorem blk9_emb_val (t : Fin cfg0.N) (ht : 25 < t.val) (y : S400x16.Idx) :
    (((((cfg0.win 9).blk t).view.emb y : S10000x16.Idx)) 0).val = 400 * (t.val - 26) + (y 0).val
      ∧ (((((cfg0.win 9).blk t).view.emb y : S10000x16.Idx)) 1).val = (y 1).val := by
  obtain ⟨e0, e1⟩ := idx9 t ht
  constructor
  · show win0_9.index t (0 : Fin 2) * 400 + 1 * (y 0).val = _
    omega
  · show win0_9.index t (1 : Fin 2) * 16 + 1 * (y 1).val = _
    omega

/-- The same as one index: row 400 (t − 26) + the row inside the block, the same column. -/
theorem blk9_emb (t : Fin cfg0.N) (ht : 25 < t.val) (y : S400x16.Idx) :
    (((cfg0.win 9).blk t).view.emb y : S10000x16.Idx)
      = ValueIdx.ix2 (⟨400 * (t.val - 26) + (y 0).val, blk9_row_lt t ht y⟩ : Fin 10000) (y 1) := by
  obtain ⟨h0, h1⟩ := blk9_emb_val t ht y
  funext a
  apply Fin.ext
  match a with
  | ⟨0, _⟩ => exact h0
  | ⟨1, _⟩ => exact h1

end Cert.KernelIdeal.Frm

end
-- ==== Proof.KI.ValueOut.lean ====
/-
  The third phase writes the specification's result.

  At a grid point t above 25 the result window's buffer holds 400 rows: rows 0 … 199 are relu of the even adjacency
  block of the point times the second scratch, rows 200 … 399 the same with the odd block. The even block holds the
  adjacency's rows 400 (t − 26) … 400 (t − 26) + 199 and the odd one the next 200, so row y of the buffer is row
  400 (t − 26) + y of relu (adj · second scratch). Once the second scratch is the second graph layer's linear part,
  that is row 400 (t − 26) + y of the specification's result, which is also what the result window's block at t reads
  off the specification's result array. No sum is evaluated: the summands are identified term by term.
-/
import proofs.«109255_g1735166787695_cont_8to1_331_10_alg».proof.Proof.KI.Data
import proofs.«109255_g1735166787695_cont_8to1_331_10_alg».proof.Proof.KI.Blocks
import proofs.«109255_g1735166787695_cont_8to1_331_10_alg».proof.Proof.KI.Cover
import proofs.«109255_g1735166787695_cont_8to1_331_10_alg».proof.Proof.PayloadsAtIndex
import proofs.«109255_g1735166787695_cont_8to1_331_10_alg».proof.Proof.Spec

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-- Row `y` of what a point `t` of the third phase leaves in the result window's buffer is row 400 (t − 26) + y of the
    specification's result, once the second scratch holds the second graph layer's linear part. -/
theorem out9_eq
    (hH : ∀ (r : Fin 10000) (j : Fin 16), H2full (F := Ideal) m c (ix2 r j)
      = Cert.Spec.lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j)
    (t : Fin cfg0.N) (ht : 25 < t.val) (y : S400x16.Idx) (r : Fin 10000) (hr : r.val = 400 * (t.val - 26) + (y 0).val) :
    out9 (F := Ideal) m c t y
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r (y 1) := by
  have hN := point_lt t
  have hy : (y 0).val < 400 := (y 0).isLt
  unfold out9 Cert.Spec.out
  by_cases h : (y 0).val < 200
  · rw [dif_pos h]
    refine (Cert.PayloadsAtIndex.pay3_apply _ _ _ _).trans ?_
    refine congrArg (fun s => max s 0) (Finset.sum_congr rfl fun l _ => ?_)
    have e1 : iblk m c 1 t (ix2 (⟨(y 0).val, h⟩ : Fin 200) l) = m ((c : Thread nD τ).loc main_arg1) (ix2 r l) :=
      (iblk_1 m c t ⟨(y 0).val, h⟩ l).trans
        (congrArg (fun q : Fin 10000 => m ((c : Thread nD τ).loc main_arg1) (ix2 q l))
          (Fin.ext (by show 400 * ((t.val - 1) % 25) + (y 0).val = r.val; omega)))
    rw [e1, hH l (y 1)]
  · rw [dif_neg h]
    refine (Cert.PayloadsAtIndex.pay4_apply _ _ _ _).trans ?_
    refine congrArg (fun s => max s 0) (Finset.sum_congr rfl fun l _ => ?_)
    have e2 : iblk m c 2 t (ix2 (⟨(y 0).val - 200, by omega⟩ : Fin 200) l) = m ((c : Thread nD τ).loc main_arg1) (ix2 r l) :=
      (iblk_2 m c t ⟨(y 0).val - 200, by omega⟩ l).trans
        (congrArg (fun q : Fin 10000 => m ((c : Thread nD τ).loc main_arg1) (ix2 q l))
          (Fin.ext (by show 400 * ((t.val - 1) % 25) + 200 + ((y 0).val - 200) = r.val; omega)))
    rw [e2, hH l (y 1)]

/-- What a point `t` of the third phase leaves in the result window's buffer is the window's block at `t` of the
    specification's result array. -/
theorem out9_read
    (hH : ∀ (r : Fin 10000) (j : Fin 16), H2full (F := Ideal) m c (ix2 r j)
      = Cert.Spec.lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j)
    (t : Fin cfg0.N) (ht : 25 < t.val) :
    out9 (F := Ideal) m c t
      = ((cfg0.win 9).blk t).view.read (Elt Ideal)
          (Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  funext y
  show out9 (F := Ideal) m c t y
      = Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (((cfg0.win 9).blk t).view.emb y)
  rw [blk9_emb t ht y]
  exact out9_eq m c hH t ht y _ rfl

end Cert.KernelIdeal.Frm

end
-- ==== Proof.KI.Value.lean ====
/-
  The idealized kernel's result. At the extended reals every block the third phase writes back is that block of the
  one array `Cert.Spec.outArr` of the launch contents of the eight arguments — the adjacency blocks against the second
  scratch, which by then is the second graph layer's linear part of every row — and the 25 blocks written back tile the
  result array. So the run ends with the result array at `Cert.Spec.outArr` and the arguments as launched.
-/
import proofs.«109255_g1735166787695_cont_8to1_331_10_alg».proof.Proof.KI.Launch
import proofs.«109255_g1735166787695_cont_8to1_331_10_alg».proof.Proof.KI.ValueRows
import proofs.«109255_g1735166787695_cont_8to1_331_10_alg».proof.Proof.KI.ValueOut
import proofs.«109255_g1735166787695_cont_8to1_331_10_alg».proof.Proof.KI.Cover
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Idealize.ShloMosaic.Ideal) ℓ) (ρ : Dev nD → PrngReg)

/-- Only points of the third phase write the result window back. -/
theorem late_of_flush (t : Fin cfg0.N) (h : (cfg0.win 9).flush t = true) : 25 < t.val := by
  by_contra hn
  rw [noFlush9_early t (by omega)] at h
  exact Bool.false_ne_true h

/-- What a point writes back of the result window is its block of the specification's array. -/
theorem flushed9 (c : Dev nD) (t : Fin cfg0.N) (hf : (cfg0.win 9).flush t = true) :
    (dats (F := Idealize.ShloMosaic.Ideal) m 0 c).flushed 9 t
      = ((cfg0.win 9).blk t).view.read (Elt Idealize.ShloMosaic.Ideal) (Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have ht := late_of_flush t hf
  show (cfg0.win 9).cut (grid0.coords t) ((dats (F := Idealize.ShloMosaic.Ideal) m 0 c).after 9 t) = _
  rw [after_9]
  exact out9_read m c (H2full_eq m c) t ht

/-- The result array after the region. -/
theorem final9 (c : Dev nD) :
    (dats (F := Idealize.ShloMosaic.Ideal) m 0 c).arrAt 9 cfg0.N = Cert.Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats (F := Idealize.ShloMosaic.Ideal) m 0 c).arrAt_eq_of_cover 9 _ (fun t hf => flushed9 m c t hf) (cover9 c)

/-- The idealized kernel runs to the specification's array in its result buffer, its arguments unchanged. -/
theorem run_value : θ_run defs (onTc (τ := τ) (main (F := Idealize.ShloMosaic.Ideal))) ⟨m, fun _ => 0, ρ⟩ (fun r => ∀ c : Dev nD,
      r.2.mem ((c.tc : Thread nD τ).loc main_v3) = Cert.Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c)⟩)
    (run_main m ρ)

end Cert.KernelIdeal.Frm

end
-- ==== Proof.lean ====
/-
  The certificate of a three-layer graph encoder: relu (adj · (relu (adj · (relu (x · W_fc + b_fc) · W_g1 + b_g1)) · W_g2 + b_g2)).

  The kernel computes it in one launch of 51 grid points: point 0 the first two layers' linear parts of all rows into a
  scratch buffer, points 1 … 25 the first aggregation and the third layer's linear part of 400 rows each into a second
  scratch buffer, points 26 … 50 the second aggregation of 400 rows each into the result; the reference computes it by
  whole-array operations, with one more relu that changes nothing. Over the extended reals both are the one function
  `Cert.Spec.outArr` of the eight argument arrays: every matrix product is the plain sum over its contracted axis on
  both sides, so no law beyond the idempotence of relu is needed and finiteness of the inputs is never used.
  The three frames: the kernel's at both instances from the run of its launch, the reference's from its run; the
  idealization rewrote nothing, so `preserves` is trivial.
-/
import proofs.«109255_g1735166787695_cont_8to1_331_10_alg».proof.Defs
import proofs.«109255_g1735166787695_cont_8to1_331_10_alg».proof.Proof.Gen.Kernel
import proofs.«109255_g1735166787695_cont_8to1_331_10_alg».proof.Proof.Gen.KernelIdeal
import proofs.«109255_g1735166787695_cont_8to1_331_10_alg».proof.Proof.Gen.ReferenceIdeal
import proofs.«109255_g1735166787695_cont_8to1_331_10_alg».proof.Proof.Gen.Pre_finite_inputs
import proofs.«109255_g1735166787695_cont_8to1_331_10_alg».proof.Proof.Gen.ReferenceIdeal.Run
import proofs.«109255_g1735166787695_cont_8to1_331_10_alg».proof.Proof.Gen.ReferenceIdeal.Read
import proofs.«109255_g1735166787695_cont_8to1_331_10_alg».proof.Proof.RefIsSpec
import proofs.«109255_g1735166787695_cont_8to1_331_10_alg».proof.Proof.K.Launch
import proofs.«109255_g1735166787695_cont_8to1_331_10_alg».proof.Proof.KI.Value
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel (hKernel := Cert.Kernel.Gen.facts) (hPre_finite_inputs := Cert.Pre_finite_inputs.Gen.facts) :=
  fun m ρ _ => Cert.Kernel.Frm.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Frm.frame m ρ

/-- The reference runs and leaves its arguments as launched: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals, from memories agreeing on the arguments, the kernel's result array and the reference's both
    end at the specification's array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  refine (Cert.RefIsSpec.run_term_eq_spec _ _ _ _ _ _ _ _).trans ?_
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
